-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x1 : Shape := ⟨2, ![1000000, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x1 .f32) : IVec S_ 1 :=
  let main_v0 : FVec F S1000000x1 .f32 := Host.absf main_arg1
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x1 : Shape := ⟨2, ![1000000, 1]⟩
abbrev S1000000 : Shape := ⟨1, ![1000000]⟩
abbrev S1024 : Shape := ⟨1, ![1024]⟩
abbrev S_ : Shape := ⟨0, ![]⟩
abbrev S512 : Shape := ⟨1, ![512]⟩
abbrev S16384x1 : Shape := ⟨2, ![16384, 1]⟩

abbrev nBuf : Table → Nat
  | .hbm => 5
  | .local .scVector .vmem => 2
  | _ => 0

abbrev bufTy : (tb : Table) → Fin (nBuf tb) → BufTy
  | .hbm, ⟨0, _⟩ => ⟨S16384, .i32⟩
  | .hbm, ⟨1, _⟩ => ⟨S1000000x1, .f32⟩
  | .hbm, ⟨2, _⟩ => ⟨S1000000, .f32⟩
  | .hbm, ⟨3, _⟩ => ⟨S16384, .f32⟩
  | .hbm, ⟨4, _⟩ => ⟨S16384x1, .f32⟩
  | .local .scVector .vmem, ⟨0, _⟩ => ⟨S1024, .i32⟩
  | .local .scVector .vmem, ⟨1, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c512_i32 : BitVec 32 := 512#32
  let v7 : BitVec 32 := Scalar.addi v2 c512_i32
  ![v7.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x1_S1000000 : S1000000x1.ShapeCasts S1000000
  inb_S1024_S512_0 : ∀ a, (![0] : Fin 1 → Nat) a + S512.size a ≤ S1024.size a
  inb_S1024_S512_512 : ∀ a, (![512] : Fin 1 → Nat) a + S512.size a ≤ S1024.size a
  inb_S1000000_S1000000_0 : ∀ a, (![0] : Fin 1 → Nat) a + S1000000.size a ≤ S1000000.size a
  gathers_S1000000_S512 : S1000000.Gathers 0 S512
  shapeCasts_S16384_S16384x1 : S16384.ShapeCasts S16384x1
  hcc0_scratch2 : 0 + S_.numel ≤ 5
  hcc0_scratch3 : 1 + S_.numel ≤ 5
  hcc0_scratch4 : 2 + S_.numel ≤ 5
  hcc0_scratch5 : 3 + S_.numel ≤ 5
  hcc0_scratch6 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512.size a ≤ S16384.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6

class Facts : Prop extends Facts₀ where

variable [Facts]
-- ==== ReferenceIdeal.lean ====
abbrev S16384 : Shape := ⟨1, ![16384]⟩
abbrev S1000000x1 : Shape := ⟨2, ![1000000, 1]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x1, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1000000x1_S16384x1_S16384x1_1_0_n_n_0_1_11_wf : GatherDims.WF S1000000x1 S16384x1 S16384x1 [1] [0] [] [0] [] 1 ![1, 1]

variable [Facts₀]

def gather_S1000000x1_S16384x1_S16384x1_1_0_n_n_0_1_11 : GatherDims S1000000x1 S16384x1 S16384x1 where
  offsetDims := [1]
  collapsedSliceDims := [0]
  operandBatchingDims := []
  startIndicesBatchingDims := []
  startIndexMap := [0]
  indexVectorDim := 1
  sliceSizes := ![1, 1]
  wf := gather_S1000000x1_S16384x1_S16384x1_1_0_n_n_0_1_11_wf

class Facts : Prop extends Facts₀ where

variable [Facts]
-- ==== Proof.Spec.lean ====
/-
  The function both programs compute: a lookup of one-column rows. For a list `idx` of 16384 row numbers and a table
  `tab` of 1000000 rows of one entry, the result has 16384 rows of one entry, and row `j` is the table's row
  `idx j`. A row number is read as a natural number and folded into the table's range by the remainder, so the
  function is total; on a list whose words are all below 1000000 (`InRange`) the remainder changes nothing.
-/
import Idealize.ShloMosaic.PureOps.Ideal
import Idealize.ShloMosaic.Lib.ValueIdx

namespace Cert.Spec

open Idealize.ShloMosaic Idealize.ShloMosaic.ValueIdx

/-- The table row a 32-bit word names. -/
def row (w : BitVec 32) : Fin 1000000 := ⟨w.toNat % 1000000, Nat.mod_lt _ (by decide)⟩

theorem row_val_of_lt {w : BitVec 32} (h : w.toNat < 1000000) : (row w).val = w.toNat := Nat.mod_eq_of_lt h

/-- Every word of the list names a row of the table. -/
def InRange (idx : (⟨1, ![16384]⟩ : Shape).Idx → BitVec 32) : Prop := ∀ x, (idx x).toNat < 1000000

/-- The lookup: row `j` of the result is row `idx j` of the table. -/
def G {E : Type} (idx : (⟨1, ![16384]⟩ : Shape).Idx → BitVec 32) (tab : (⟨2, ![1000000, 1]⟩ : Shape).Idx → E) :
    (⟨2, ![16384, 1]⟩ : Shape).Idx → E :=
  fun j => tab (ix2 (row (idx (ix1 (j 0)))) (0 : Fin 1))

end Cert.Spec
-- ==== Proof.KI.Setup.lean ====
/-
  The lookup kernel on the vector subcores: names for the program, the ghost state, the buffers, and what the
  launch's handshakes carry. Sixteen tiles each own 1024 consecutive entries of the index list and of the result,
  as two halves of 512; the table (the one-column array read flat) is read by all of them at once, each under its
  own read share. Tile `j` leaves in its two halves of the result the table's entries at its index words.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«201894_g28389733827062_cont_9to1_257_7_alg».proof.Proof.Gen.KernelIdeal
import proofs.«201894_g28389733827062_cont_9to1_257_7_alg».proof.Proof.Gen.KernelIdeal.Skeleton
import proofs.«201894_g28389733827062_cont_9to1_257_7_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

/-! ## The 32 runs of 512 entries

The list and the result have 16384 entries; run `h` is entries `512 h … 512 h + 511`. Tile `j` owns runs `2j` and
`2j + 1`. The runs are pairwise disjoint and cover the array. -/

omit m ρ in
theorem half_inb (h : Fin 32) : ∀ a, (![512 * h.val] : Fin 1 → Nat) a + S512.size a ≤ S16384.size a := by
  intro a
  obtain rfl : a = 0 := Subsingleton.elim _ _
  have := h.isLt
  show 512 * h.val + 512 ≤ 16384
  omega
abbrev halfR (h : Fin 32) : Rect S16384 := Rect.unit (s := S16384) ![512 * h.val] S512.size (half_inb h)
abbrev halfSet (h : Fin 32) : Finset S16384.Idx := (halfR h).set
abbrev lo (j : Fin 16) : Fin 32 := ⟨2 * j.val, by omega⟩
abbrev hi (j : Fin 16) : Fin 32 := ⟨2 * j.val + 1, by omega⟩

omit m ρ in
theorem mem_halfSet {h : Fin 32} {i : S16384.Idx} : i ∈ halfSet h ↔ 512 * h.val ≤ (i 0).val ∧ (i 0).val < 512 * h.val + 512 := by
  rw [Rect.mem_set_unit]
  constructor
  · intro H; exact H 0
  · intro H a
    obtain rfl : a = 0 := Subsingleton.elim _ _
    exact H

omit m ρ in
theorem halves_disjoint : ∀ h ∈ (Finset.univ : Finset (Fin 32)), ∀ h' ∈ (Finset.univ : Finset (Fin 32)), h ≠ h' → Disjoint (halfSet h) (halfSet h') := by
  intro h _ h' _ ne
  refine Rect.unit_disjoint (0 : Fin 1) ?_
  have hv : h.val ≠ h'.val := fun e => ne (Fin.ext e)
  show 512 * h.val + 512 ≤ 512 * h'.val ∨ 512 * h'.val + 512 ≤ 512 * h.val
  omega

omit m ρ in
theorem halves_cover : (Finset.univ : Finset (Fin 32)).biUnion halfSet = Finset.univ := by
  ext i
  simp only [Finset.mem_biUnion, Finset.mem_univ, true_and, iff_true]
  have hi : (i 0).val < 16384 := (i 0).isLt
  exact ⟨⟨(i 0).val / 512, by omega⟩, mem_halfSet.mpr ⟨by show 512 * ((i 0).val / 512) ≤ _; omega, by show _ < 512 * ((i 0).val / 512) + 512; omega⟩⟩

variable [FloatOps F]

/-! ## The values -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two host operations: the table read flat before the call, the result re-laid as a column after it. -/
abbrev opR1 : HloOp τ sig (Elt F) := StableHlo.reshape main_arg1 main_v0 rfl shapeCasts_S1000000x1_S1000000
abbrev opR2 : HloOp τ sig (Elt F) := StableHlo.reshape main_v1 main_v2 rfl shapeCasts_S16384_S16384x1

/-- The launch valuation of the TensorCore's arrays. -/
def V0 (d : Dev nD) : Valuation τ sig (Elt F) := fun b => m (d, b)
/-- The table as the kernel reads it: the one-column array, flat. -/
def TAB (d : Dev nD) : Buf (Elt F) (tLoc d) := (opR1 (F := F)).result (V0 m d) t'
/-- What the kernel leaves in its result: entry `k` is the table's entry at the row the list's word `k` names. -/
def OUT (d : Dev nD) : Buf (Elt F) (oLoc d) :=
  fun k => (TAB m d : S1000000.Idx → Elt F .f32) (ValueIdx.ix1 (Cert.Spec.row (m (iLoc d) k)))

/-- What the proof asks of the launch memory: every word of the list names a row of the table. -/
def PreOK : Prop := ∀ d : Dev nD, Cert.Spec.InRange (m (iLoc d))

/-! ## What the handshakes carry -/

abbrev iPts (d : Dev nD) : sProp 𝕄 := iLoc d ↦{fullShare} m (iLoc d)
abbrev xPts (d : Dev nD) : sProp 𝕄 := xLoc d ↦{fullShare} m (xLoc d)
abbrev tPts (d : Dev nD) : sProp 𝕄 := tLoc d ↦{fullShare} TAB m d
abbrev oPts (d : Dev nD) (f : Buf (Elt F) (oLoc d)) : sProp 𝕄 := oLoc d ↦{fullShare} f
abbrev iHalf (d : Dev nD) (h : Fin 32) : sProp 𝕄 := iLoc d ↦[halfSet h]{fullShare} m (iLoc d)
abbrev oHalf (d : Dev nD) (h : Fin 32) (f : Buf (Elt F) (oLoc d)) : sProp 𝕄 := oLoc d ↦[halfSet h]{fullShare} f
/-- Tile `j`'s read share of the table. -/
abbrev tq (j : Fin 16) : PosShare TreeShare := Transfers.shareTok fullShare 16 j
abbrev tTok (d : Dev nD) (j : Fin 16) : sProp 𝕄 := tLoc d ↦{tq j} TAB m d

/-- What tile `j` is handed and hands back: its two runs of the list, its read share of the table, its two runs of
    the result at contents `f`. -/
abbrev tileP (d : Dev nD) (j : Fin 16) (f : Buf (Elt F) (oLoc d)) : sProp 𝕄 :=
  iprop(iHalf m d (lo j) ∗ iHalf m d (hi j) ∗ tTok m d j ∗ oHalf d (lo j) f ∗ oHalf d (hi j) f)

/-- The one call takes the list, the flat table and the result whole, and brings them back, the result at the lookup;
    each task takes its runs and its share, and brings them back, its runs of the result at the lookup. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (OUT m d))
  go := fun q d _ i => match q with | 0 => tileP m d (Fin.cast nSub_zero i) (m (oLoc d))
  td := fun q d _ i => match q with | 0 => tileP m d (Fin.cast nSub_zero i) (OUT m d)
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (OUT m d)))
  go q d _ i := match q with
    | 0 => (inferInstance : BI.Storable (upEmb : UEmb _ 𝕄) (tileP m d (Fin.cast nSub_zero i) (m (oLoc d))))
  td q d _ i := match q with
    | 0 => (inferInstance : BI.Storable (upEmb : UEmb _ 𝕄) (tileP m d (Fin.cast nSub_zero i) (OUT m d)))

end Cert.Proof.KI

end
-- ==== Proof.KI.Geometry.lean ====
/-
  The geometry of one tile's task: its two runs of the list and of the result as the program slices them (from the
  printed offsets), the two halves of each scratch buffer, the gather read at an entry, and the resources of the
  tile restated in the forms the program names them by.
-/
import proofs.«201894_g28389733827062_cont_9to1_257_7_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

variable (d : Dev nD) (L : grid0.Coords)

abbrev cV (L : grid0.Coords) : Fin τ.nSC := (L 0).castLE hcore0
abbrev jV (L : grid0.Coords) : Fin τ.nSub := (L 1).castLE hsub0
omit m ρ in
theorem bound_one : grid0.bound 1 = 16 := rfl
abbrev jL (L : grid0.Coords) : Fin 16 := Fin.cast bound_one (L 1)

/-- The program's two slices of a 16384-entry array at the tile's offsets, and its slices of the scratch buffers. -/
abbrev r1 (L : grid0.Coords) : Rect S16384 := Rect.unit (s := S16384) (k0_off1 L) S512.size (k0_off1_inb L)
abbrev r2 (L : grid0.Coords) : Rect S16384 := Rect.unit (s := S16384) (k0_off2 L) S512.size (k0_off2_inb L)
abbrev i1K (L : grid0.Coords) : Memref sig .scVector .hbm S512 .i32 := (iV).slice (r1 L) (fun _ => rfl)
abbrev i2K (L : grid0.Coords) : Memref sig .scVector .hbm S512 .i32 := (iV).slice (r2 L) (fun _ => rfl)
abbrev o1K (L : grid0.Coords) : Memref sig .scVector .hbm S512 .f32 := (oV).slice (r1 L) (fun _ => rfl)
abbrev o2K (L : grid0.Coords) : Memref sig .scVector .hbm S512 .f32 := (oV).slice (r2 L) (fun _ => rfl)
abbrev tAllK : Memref sig .scVector .hbm S1000000 .f32 := (tV).slice (Rect.unit (s := S1000000) ![0] S1000000.size inb_S1000000_S1000000_0) (fun _ => rfl)
abbrev qLo : Rect S1024 := Rect.unit (s := S1024) ![0] S512.size inb_S1024_S512_0
abbrev qHi : Rect S1024 := Rect.unit (s := S1024) ![512] S512.size inb_S1024_S512_512
abbrev sLo : Memref sig .scVector .vmem S512 .i32 := (sV).slice qLo (fun _ => rfl)
abbrev sHi : Memref sig .scVector .vmem S512 .i32 := (sV).slice qHi (fun _ => rfl)
abbrev rLo : Memref sig .scVector .vmem S512 .f32 := (rV).slice qLo (fun _ => rfl)
abbrev rHi : Memref sig .scVector .vmem S512 .f32 := (rV).slice qHi (fun _ => rfl)

/-! ## The tile's runs are runs `2j` and `2j + 1` -/

omit m ρ in
theorem L0_zero : (L 0).val = 0 := Nat.lt_one_iff.mp (L 0).isLt

omit m ρ in
theorem set_r1 : (r1 L).set = halfSet (lo (jL L)) := by
  ext i
  rw [Rect.mem_set_unit, mem_halfSet, k0_off1_eq]
  have h0 := L0_zero L
  constructor
  · intro H
    have := H 0
    simp only [Matrix.cons_val_zero] at this
    show 512 * (2 * (L 1).val) ≤ _ ∧ _ < 512 * (2 * (L 1).val) + 512
    have e : S512.size 0 = 512 := rfl
    omega
  · intro H a
    obtain rfl : a = 0 := Subsingleton.elim _ _
    have H' : 512 * (2 * (L 1).val) ≤ (i 0).val ∧ (i 0).val < 512 * (2 * (L 1).val) + 512 := H
    simp only [Matrix.cons_val_zero]
    have e : S512.size 0 = 512 := rfl
    omega

omit m ρ in
theorem set_r2 : (r2 L).set = halfSet (hi (jL L)) := by
  ext i
  rw [Rect.mem_set_unit, mem_halfSet, k0_off2_eq]
  have h0 := L0_zero L
  constructor
  · intro H
    have := H 0
    simp only [Matrix.cons_val_zero] at this
    show 512 * (2 * (L 1).val + 1) ≤ _ ∧ _ < 512 * (2 * (L 1).val + 1) + 512
    have e : S512.size 0 = 512 := rfl
    omega
  · intro H a
    obtain rfl : a = 0 := Subsingleton.elim _ _
    have H' : 512 * (2 * (L 1).val + 1) ≤ (i 0).val ∧ (i 0).val < 512 * (2 * (L 1).val + 1) + 512 := H
    simp only [Matrix.cons_val_zero]
    have e : S512.size 0 = 512 := rfl
    omega

omit m ρ in
theorem set_i1K : (i1K L).view.set = halfSet (lo (jL L)) := (View.set_slice_whole _ _).trans (set_r1 L)
omit m ρ in
theorem set_i2K : (i2K L).view.set = halfSet (hi (jL L)) := (View.set_slice_whole _ _).trans (set_r2 L)
omit m ρ in
theorem set_o1K : (o1K L).view.set = halfSet (lo (jL L)) := (View.set_slice_whole _ _).trans (set_r1 L)
omit m ρ in
theorem set_o2K : (o2K L).view.set = halfSet (hi (jL L)) := (View.set_slice_whole _ _).trans (set_r2 L)

omit m ρ in
theorem pts_i1K (f : Buf (Elt F) (iLoc d)) :
    ((i1K L).view.loc (V d (cV L) (jV L)) ↦[(i1K L).view.set]{fullShare} f : sProp 𝕄) = iLoc d ↦[halfSet (lo (jL L))]{fullShare} f := by
  rw [set_i1K]
omit m ρ in
theorem pts_i2K (f : Buf (Elt F) (iLoc d)) :
    ((i2K L).view.loc (V d (cV L) (jV L)) ↦[(i2K L).view.set]{fullShare} f : sProp 𝕄) = iLoc d ↦[halfSet (hi (jL L))]{fullShare} f := by
  rw [set_i2K]
omit m ρ in
theorem pts_o1K (f : Buf (Elt F) (oLoc d)) :
    ((o1K L).view.loc (V d (cV L) (jV L)) ↦[(o1K L).view.set]{fullShare} f : sProp 𝕄) = oLoc d ↦[halfSet (lo (jL L))]{fullShare} f := by
  rw [set_o1K]
omit m ρ in
theorem pts_o2K (f : Buf (Elt F) (oLoc d)) :
    ((o2K L).view.loc (V d (cV L) (jV L)) ↦[(o2K L).view.set]{fullShare} f : sProp 𝕄) = oLoc d ↦[halfSet (hi (jL L))]{fullShare} f := by
  rw [set_o2K]
omit m ρ in
theorem pts_tV (q : PosShare TreeShare) (f : Buf (Elt F) (tLoc d)) :
    ((tV).view.loc (V d (cV L) (jV L)) ↦{q} f : sProp 𝕄) = tLoc d ↦{q} f := rfl

/-! ## A scratch buffer is its two halves -/

omit m ρ in
theorem q_disjoint : Disjoint (qLo).set (qHi).set := Rect.unit_disjoint (0 : Fin 1) (Or.inl (by decide))
omit m ρ in
theorem q_cover : (qLo).set ∪ (qHi).set = (Finset.univ : Finset S1024.Idx) := by
  ext i
  simp only [Finset.mem_union, Finset.mem_univ, iff_true, Rect.mem_set_unit]
  have hi : (i 0).val < 1024 := (i 0).isLt
  by_cases h : (i 0).val < 512
  · left; intro a; obtain rfl : a = 0 := Subsingleton.elim _ _
    exact ⟨Nat.zero_le _, by show (i 0).val < 0 + 512; omega⟩
  · right; intro a; obtain rfl : a = 0 := Subsingleton.elim _ _
    exact ⟨by show 512 ≤ (i 0).val; omega, by show (i 0).val < 512 + 512; omega⟩

omit m ρ in
theorem pts_sHalves (f : Buf (Elt F) ((V d (cV L) (jV L)).loc cc0_scratch0)) :
    ((V d (cV L) (jV L)).loc cc0_scratch0 ↦{fullShare} f : sProp 𝕄)
      ⊣⊢ iprop(((sLo).view.loc (V d (cV L) (jV L)) ↦[(sLo).view.set]{fullShare} f) ∗ ((sHi).view.loc (V d (cV L) (jV L)) ↦[(sHi).view.set]{fullShare} f)) := by
  have e1 : (sLo).view.set = (qLo).set := View.set_slice_whole _ _
  have e2 : (sHi).view.set = (qHi).set := View.set_slice_whole _ _
  rw [e1, e2]
  have h : ((V d (cV L) (jV L)).loc cc0_scratch0 ↦[(qLo).set ∪ (qHi).set]{fullShare} f : sProp 𝕄)
      ⊣⊢ iprop(((V d (cV L) (jV L)).loc cc0_scratch0 ↦[(qLo).set]{fullShare} f) ∗ ((V d (cV L) (jV L)).loc cc0_scratch0 ↦[(qHi).set]{fullShare} f)) :=
    pointsTo_union q_disjoint
  rw [q_cover] at h
  exact h

omit m ρ in
theorem pts_rHalves (f : Buf (Elt F) ((V d (cV L) (jV L)).loc cc0_scratch1)) :
    ((V d (cV L) (jV L)).loc cc0_scratch1 ↦{fullShare} f : sProp 𝕄)
      ⊣⊢ iprop(((rLo).view.loc (V d (cV L) (jV L)) ↦[(rLo).view.set]{fullShare} f) ∗ ((rHi).view.loc (V d (cV L) (jV L)) ↦[(rHi).view.set]{fullShare} f)) := by
  have e1 : (rLo).view.set = (qLo).set := View.set_slice_whole _ _
  have e2 : (rHi).view.set = (qHi).set := View.set_slice_whole _ _
  rw [e1, e2]
  have h : ((V d (cV L) (jV L)).loc cc0_scratch1 ↦[(qLo).set ∪ (qHi).set]{fullShare} f : sProp 𝕄)
      ⊣⊢ iprop(((V d (cV L) (jV L)).loc cc0_scratch1 ↦[(qLo).set]{fullShare} f) ∗ ((V d (cV L) (jV L)).loc cc0_scratch1 ↦[(qHi).set]{fullShare} f)) :=
    pointsTo_union q_disjoint
  rw [q_cover] at h
  exact h

/-- The two halves, at whatever each holds, are the buffer at some contents. -/
theorem join_sHalves (g1 g2 : Buf (Elt F) ((V d (cV L) (jV L)).loc cc0_scratch0)) :
    iprop(((sLo).view.loc (V d (cV L) (jV L)) ↦[(sLo).view.set]{fullShare} g1) ∗ ((sHi).view.loc (V d (cV L) (jV L)) ↦[(sHi).view.set]{fullShare} g2))
      ⊢ (iprop(∃ f, (V d (cV L) (jV L)).loc cc0_scratch0 ↦{fullShare} f) : sProp 𝕄) := by
  have e1 : (sLo).view.set = (qLo).set := View.set_slice_whole _ _
  have e2 : (sHi).view.set = (qHi).set := View.set_slice_whole _ _
  rw [e1, e2]
  have h : iprop(((V d (cV L) (jV L)).loc cc0_scratch0 ↦[(qLo).set]{fullShare} g1) ∗ ((V d (cV L) (jV L)).loc cc0_scratch0 ↦[(qHi).set]{fullShare} g2))
      ⊢ ((V d (cV L) (jV L)).loc cc0_scratch0 ↦[(qLo).set ∪ (qHi).set]{fullShare} ((qHi).set.piecewise g2 g1) : sProp 𝕄) :=
    pointsTo_join q_disjoint
  rw [q_cover] at h
  refine h.trans ?_
  iintro H
  iexists _
  iexact H

theorem join_rHalves (g1 g2 : Buf (Elt F) ((V d (cV L) (jV L)).loc cc0_scratch1)) :
    iprop(((rLo).view.loc (V d (cV L) (jV L)) ↦[(rLo).view.set]{fullShare} g1) ∗ ((rHi).view.loc (V d (cV L) (jV L)) ↦[(rHi).view.set]{fullShare} g2))
      ⊢ (iprop(∃ f, (V d (cV L) (jV L)).loc cc0_scratch1 ↦{fullShare} f) : sProp 𝕄) := by
  have e1 : (rLo).view.set = (qLo).set := View.set_slice_whole _ _
  have e2 : (rHi).view.set = (qHi).set := View.set_slice_whole _ _
  rw [e1, e2]
  have h : iprop(((V d (cV L) (jV L)).loc cc0_scratch1 ↦[(qLo).set]{fullShare} g1) ∗ ((V d (cV L) (jV L)).loc cc0_scratch1 ↦[(qHi).set]{fullShare} g2))
      ⊢ ((V d (cV L) (jV L)).loc cc0_scratch1 ↦[(qLo).set ∪ (qHi).set]{fullShare} ((qHi).set.piecewise g2 g1) : sProp 𝕄) :=
    pointsTo_join q_disjoint
  rw [q_cover] at h
  refine h.trans ?_
  iintro H
  iexists _
  iexact H

/-! ## The tile's read share of the table, as one token per gather in flight and the rest -/

omit m ρ in
theorem bigSep_range4 (Φ : ℕ → sProp 𝕄) : bigSep (Finset.range 4) Φ = iprop(Φ 3 ∗ Φ 2 ∗ Φ 1 ∗ Φ 0) := by
  rw [Finset.range_add_one, SparseCore.bigSep_insert' Finset.notMem_range_self,
    Finset.range_add_one, SparseCore.bigSep_insert' Finset.notMem_range_self,
    Finset.range_add_one, SparseCore.bigSep_insert' Finset.notMem_range_self,
    Finset.range_one, bigSep_singleton]

/-- What is left of a share once the two gathers' tokens are taken out. -/
abbrev tRest (q : PosShare TreeShare) (f : Buf (Elt F) (tLoc d)) : sProp 𝕄 :=
  iprop((tLoc d ↦{Transfers.shareDrop q 4} f) ∗ (tLoc d ↦{Transfers.shareTokN q 1} f) ∗ (tLoc d ↦{Transfers.shareTokN q 0} f))

omit m ρ in
theorem pts_toks (q : PosShare TreeShare) (f : Buf (Elt F) (tLoc d)) :
    (tLoc d ↦{q} f : sProp 𝕄)
      ⊣⊢ iprop(((tV).view.loc (V d (cV L) (jV L)) ↦{Transfers.shareTokN q 2} f) ∗ ((tV).view.loc (V d (cV L) (jV L)) ↦{Transfers.shareTokN q 3} f) ∗ tRest d q f) := by
  have h : (tLoc d ↦{q} f : sProp 𝕄) ⊣⊢ iprop((tLoc d ↦{Transfers.shareDrop q 4} f) ∗ bigSep (Finset.range 4) (fun i => tLoc d ↦{Transfers.shareTokN q i} f)) :=
    Transfers.pointsTo_toks_range q 4
  rw [bigSep_range4] at h
  refine ⟨h.1.trans ?_, BIBase.Entails.trans ?_ h.2⟩
  · iintro ⟨Hd, H3, H2, H1, H0⟩
    isplitl [H2]; · iexact H2
    isplitl [H3]; · iexact H3
    isplitl [Hd]; · iexact Hd
    isplitl [H1]; · iexact H1
    iexact H0
  · iintro ⟨H2, H3, Hd, H1, H0⟩
    isplitl [Hd]; · iexact Hd
    isplitl [H3]; · iexact H3
    isplitl [H2]; · iexact H2
    isplitl [H1]; · iexact H1
    iexact H0

end Cert.Proof.KI

end
-- ==== Proof.LookupRead.lean ====
/-
  Three readings used around the lookup. (1) The indirect gather's payload from a flat table of 1000000 entries
  into 512 entries: entry `x` of the destination is the table's entry at the row the `x`-th word names. (2) The
  rectangle that starts at 0 and spans a whole rank-one array places each index at itself. (3) The table's one
  column flattened to a list, looked up at each row number, and the result unflattened to one column, is the
  lookup of one-column rows.
-/
import Idealize.ShloMosaic.Lib.SparseCore.Stream
import Idealize.ShloMosaic.Lib.ValueIdx
import Idealize.ShloMosaic.Lib.Pipeline.Value
import proofs.«201894_g28389733827062_cont_9to1_257_7_alg».proof.Proof.Spec

namespace Cert.LookupRead

open Idealize.ShloMosaic Idealize.ShloMosaic.ValueIdx

/-- The gather's payload at entry `x`: the table at the row the word `w x` names. The row list takes entry `k` of
    the words in row-major order, which at rank one is entry `k` itself. -/
theorem gather_flat {F : FTy → Type} (hg : (⟨1, ![1000000]⟩ : Shape).Gathers 0 (⟨1, ![512]⟩ : Shape))
    (g : (⟨1, ![1000000]⟩ : Shape).Idx → Elt F .f32) (w : (⟨1, ![512]⟩ : Shape).Idx → Elt F .i32)
    (hn : (⟨1, ![512]⟩ : Shape).numel = (⟨1, ![512]⟩ : Shape).size hg.axis')
    (hin : ∀ x, (w x).toNat < (⟨1, ![1000000]⟩ : Shape).size hg.axis)
    (x : (⟨1, ![512]⟩ : Shape).Idx) :
    SparseCore.gatherPayload hg g (SparseCore.rows w hn hin) x = g (ix1 (Cert.Spec.row (w x))) := by
  unfold SparseCore.gatherPayload
  refine congrArg g (funext fun b => Fin.ext ?_)
  match b with
  | ⟨0, _⟩ =>
    have e1 : hg.idx (SparseCore.rows w hn hin) x hg.axis = SparseCore.rows w hn hin (x hg.axis') :=
      hg.idx_axis _ x
    show (hg.idx (SparseCore.rows w hn hin) x hg.axis).val = (Cert.Spec.row (w x)).val
    rw [e1]
    have e2 : (⟨1, ![512]⟩ : Shape).rowMajor.symm ((x hg.axis').cast hn.symm) = x := by
      rw [Equiv.symm_apply_eq]
      refine Fin.ext ?_
      rw [Shape.rowMajor_val_one]
      rfl
    show (w ((⟨1, ![512]⟩ : Shape).rowMajor.symm ((x hg.axis').cast hn.symm))).toNat = _
    rw [e2]
    exact (Cert.Spec.row_val_of_lt (hin x)).symm

/-- The same with the range of the words stated as a number. -/
theorem gather_flat' {F : FTy → Type} (hg : (⟨1, ![1000000]⟩ : Shape).Gathers 0 (⟨1, ![512]⟩ : Shape))
    (g : (⟨1, ![1000000]⟩ : Shape).Idx → Elt F .f32) (w : (⟨1, ![512]⟩ : Shape).Idx → Elt F .i32)
    (hn : (⟨1, ![512]⟩ : Shape).numel = (⟨1, ![512]⟩ : Shape).size hg.axis')
    (hin' : ∀ x, (w x).toNat < 1000000) (x : (⟨1, ![512]⟩ : Shape).Idx) :
    SparseCore.gatherPayload hg g (SparseCore.rows w hn hin') x = g (ix1 (Cert.Spec.row (w x))) :=
  gather_flat hg g w hn hin' x

/-- The rectangle from 0 over the whole of a rank-one array places each index at itself. -/
theorem emb_unit_zero {n : Nat}
    (inb : ∀ a, (![0] : Fin 1 → Nat) a + (⟨1, ![n]⟩ : Shape).size a ≤ (⟨1, ![n]⟩ : Shape).size a)
    (y : (Rect.unit (s := (⟨1, ![n]⟩ : Shape)) ![0] (⟨1, ![n]⟩ : Shape).size inb).shape.Idx) :
    (Rect.unit (s := (⟨1, ![n]⟩ : Shape)) ![0] (⟨1, ![n]⟩ : Shape).size inb).emb y = y := by
  funext a
  apply Fin.ext
  match a with
  | ⟨0, _⟩ =>
    show 0 + 1 * (y ⟨0, _⟩ : Nat) = y ⟨0, _⟩
    omega

/-- Flatten the table's one column, look each row number up, unflatten to one column: the lookup of one-column
    rows. A shape cast keeps the row-major position; with a column of extent one the position of `(r, 0)` is `r`. -/
theorem reshape_lookup {E : Type} (idx : (⟨1, ![16384]⟩ : Shape).Idx → BitVec 32)
    (tab : (⟨2, ![1000000, 1]⟩ : Shape).Idx → E)
    (hn1 : (⟨2, ![1000000, 1]⟩ : Shape).ShapeCasts ⟨1, ![1000000]⟩)
    (hn2 : (⟨1, ![16384]⟩ : Shape).ShapeCasts ⟨2, ![16384, 1]⟩) :
    (fun i => shapeCast (⟨2, ![16384, 1]⟩ : Shape)
        (fun k => shapeCast (⟨1, ![1000000]⟩ : Shape) tab hn1 (ix1 (Cert.Spec.row (idx k)))) hn2 i)
      = Cert.Spec.G idx tab := by
  funext i
  have h1 : (i 1).val < 1 := (i 1).isLt
  refine (shapeCast_apply _ hn2 i (ix1 (i 0)) ?_).trans ?_
  · rw [Shape.rowMajor_val_one, Shape.rowMajor_val_two]
    show (i 0).val = (i 0).val * 1 + (i 1).val
    omega
  · show shapeCast (⟨1, ![1000000]⟩ : Shape) tab hn1 (ix1 (Cert.Spec.row (idx (ix1 (i 0))))) = _
    refine (shapeCast_apply tab hn1 _ (ix2 (Cert.Spec.row (idx (ix1 (i 0)))) (0 : Fin 1)) ?_).trans rfl
    rw [Shape.rowMajor_val_one, Shape.rowMajor_val_two]
    show (Cert.Spec.row (idx (ix1 (i 0)))).val * 1 + 0 = (Cert.Spec.row (idx (ix1 (i 0)))).val
    omega

end Cert.LookupRead
-- ==== Proof.KI.Body.lean ====
/-
  One tile's task. The tile copies its two runs of the index list into the two halves of its list buffer, gathers
  for each half the table's entries the words name into the matching half of its value buffer, and copies each half
  out to its run of the result. Every word of the list names a row of the table, so both gathers are served to the
  end; when the task ends, the tile's two runs of the result hold the table's entries at its words, and everything
  it was lent is back.
-/
import proofs.«201894_g28389733827062_cont_9to1_257_7_alg».proof.Proof.KI.Geometry
import proofs.«201894_g28389733827062_cont_9to1_257_7_alg».proof.Proof.LookupRead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

variable [FloatOps F]

section Tile

variable (d : Dev nD) (L : grid0.Coords)

abbrev cell (k : DmaSems sig S_) (d : Dev nD) (c : Fin τ.nSC) (i : Fin τ.nSub) : GSem nD τ sig := (V d c i, .dma k.sem)

omit m ρ in
theorem cell_ne {k k' : DmaSem sig} (h : k ≠ k') : (((V d (cV L) (jV L)), SemLoc.dma k) : GSem nD τ sig) ≠ ((V d (cV L) (jV L)), SemLoc.dma k') :=
  fun e => h (SemLoc.dma.inj (Prod.mk.inj e).2)

omit m ρ in
/-- The tile's five transfer semaphores are among its own: they are them, and the rest. -/
theorem ownSems0_V :
    (ownSems0 (V d (cV L) (jV L)) : sProp 𝕄)
      = iprop(semVal (cell cc0_scratch2 d (cV L) (jV L)) 0 ∗ semVal (cell cc0_scratch3 d (cV L) (jV L)) 0 ∗ semVal (cell cc0_scratch4 d (cV L) (jV L)) 0 ∗ semVal (cell cc0_scratch5 d (cV L) (jV L)) 0 ∗ semVal (cell cc0_scratch6 d (cV L) (jV L)) 0
          ∗ bigSep ((((((ownCells (V d (cV L) (jV L))).erase (cell cc0_scratch2 d (cV L) (jV L))).erase (cell cc0_scratch3 d (cV L) (jV L))).erase (cell cc0_scratch4 d (cV L) (jV L))).erase (cell cc0_scratch5 d (cV L) (jV L))).erase (cell cc0_scratch6 d (cV L) (jV L))) fun g => semVal g 0) := by
  unfold SparseCore.Cfg.ownSems0
  rw [SparseCore.bigSep_erase' ((mem_ownCells (g := (cell cc0_scratch2 d (cV L) (jV L)))).mpr ⟨rfl, by show (SemLoc.dma cc0_scratch2.sem : SemLoc sig).isScoped .scVector = true; decide⟩),
    SparseCore.bigSep_erase' (Finset.mem_erase.mpr ⟨cell_ne d L (by decide : (cc0_scratch3.sem : DmaSem sig) ≠ cc0_scratch2.sem), (mem_ownCells (g := (cell cc0_scratch3 d (cV L) (jV L)))).mpr ⟨rfl, by show (SemLoc.dma cc0_scratch3.sem : SemLoc sig).isScoped .scVector = true; decide⟩⟩),
    SparseCore.bigSep_erase' (Finset.mem_erase.mpr ⟨cell_ne d L (by decide : (cc0_scratch4.sem : DmaSem sig) ≠ cc0_scratch3.sem), Finset.mem_erase.mpr ⟨cell_ne d L (by decide : (cc0_scratch4.sem : DmaSem sig) ≠ cc0_scratch2.sem), (mem_ownCells (g := (cell cc0_scratch4 d (cV L) (jV L)))).mpr ⟨rfl, by show (SemLoc.dma cc0_scratch4.sem : SemLoc sig).isScoped .scVector = true; decide⟩⟩⟩),
    SparseCore.bigSep_erase' (Finset.mem_erase.mpr ⟨cell_ne d L (by decide : (cc0_scratch5.sem : DmaSem sig) ≠ cc0_scratch4.sem), Finset.mem_erase.mpr ⟨cell_ne d L (by decide : (cc0_scratch5.sem : DmaSem sig) ≠ cc0_scratch3.sem), Finset.mem_erase.mpr ⟨cell_ne d L (by decide : (cc0_scratch5.sem : DmaSem sig) ≠ cc0_scratch2.sem), (mem_ownCells (g := (cell cc0_scratch5 d (cV L) (jV L)))).mpr ⟨rfl, by show (SemLoc.dma cc0_scratch5.sem : SemLoc sig).isScoped .scVector = true; decide⟩⟩⟩⟩),
    SparseCore.bigSep_erase' (Finset.mem_erase.mpr ⟨cell_ne d L (by decide : (cc0_scratch6.sem : DmaSem sig) ≠ cc0_scratch5.sem), Finset.mem_erase.mpr ⟨cell_ne d L (by decide : (cc0_scratch6.sem : DmaSem sig) ≠ cc0_scratch4.sem), Finset.mem_erase.mpr ⟨cell_ne d L (by decide : (cc0_scratch6.sem : DmaSem sig) ≠ cc0_scratch3.sem), Finset.mem_erase.mpr ⟨cell_ne d L (by decide : (cc0_scratch6.sem : DmaSem sig) ≠ cc0_scratch2.sem), (mem_ownCells (g := (cell cc0_scratch6 d (cV L) (jV L)))).mpr ⟨rfl, by show (SemLoc.dma cc0_scratch6.sem : SemLoc sig).isScoped .scVector = true; decide⟩⟩⟩⟩⟩)]

omit m ρ [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A run of the list fetched into a half of the list buffer: every word there names a row of the table. -/
theorem inb_lo [∀ e, Nonempty (Elt F e)] (hpre : PreOK m) (base : Buf (Elt F) ((sLo).view.loc (V d (cV L) (jV L)))) (pay : S512.Idx → Elt F .i32)
    (hpay : pay = (i1K L).view.read (Elt F) (m (iLoc d))) :
    ∀ x, ((sLo).view.read (Elt F) ((sLo).view.writes (Elt F) base [⟨Rect.whole S512, pay⟩]) x).toNat < 1000000 := by
  subst hpay; intro x
  rw [View.read_writes_whole, View.read_apply]
  simp only [cast_eq]
  exact hpre d _
theorem inb_hi [∀ e, Nonempty (Elt F e)] (hpre : PreOK m) (base : Buf (Elt F) ((sHi).view.loc (V d (cV L) (jV L)))) (pay : S512.Idx → Elt F .i32)
    (hpay : pay = (i2K L).view.read (Elt F) (m (iLoc d))) :
    ∀ x, ((sHi).view.read (Elt F) ((sHi).view.writes (Elt F) base [⟨Rect.whole S512, pay⟩]) x).toNat < 1000000 := by
  subst hpay; intro x
  rw [View.read_writes_whole, View.read_apply]
  simp only [cast_eq]
  exact hpre d _

/-! ## What a half of the result holds when its copy has landed -/

/-- A gathered half read at an entry: the table's entry at the row the list's word there names. -/
theorem gathered_lo [∀ e, Nonempty (Elt F e)] (base : Buf (Elt F) ((sLo).view.loc (V d (cV L) (jV L)))) (fr : Buf (Elt F) ((rLo).view.loc (V d (cV L) (jV L))))
    (hn : S512.numel = S512.size gathers_S1000000_S512.axis')
    (hin : ∀ x, ((sLo).view.read (Elt F) ((sLo).view.writes (Elt F) base [⟨Rect.whole S512, (i1K L).view.read (Elt F) (m (iLoc d))⟩]) x).toNat < 1000000)
    (x : S512.Idx) :
    (rLo).view.read (Elt F) ((rLo).view.writes (Elt F) fr [⟨Rect.whole S512,
        SparseCore.gatherPayload gathers_S1000000_S512 ((tAllK).view.read (Elt F) (TAB m d))
          (SparseCore.rows ((sLo).view.read (Elt F) ((sLo).view.writes (Elt F) base [⟨Rect.whole S512, (i1K L).view.read (Elt F) (m (iLoc d))⟩])) hn hin)⟩]) x
      = (TAB m d : S1000000.Idx → Elt F .f32) (ValueIdx.ix1 (Cert.Spec.row (m (iLoc d) ((i1K L).view.emb x)))) := by
  rw [View.read_writes_whole]
  refine (Cert.LookupRead.gather_flat _ _ _ _ _ x).trans ?_
  rw [View.read_writes_whole, View.read_apply, View.read_apply]
  simp only [cast_eq]
  refine congrArg (TAB m d) ?_
  exact Cert.LookupRead.emb_unit_zero _ _

theorem gathered_hi [∀ e, Nonempty (Elt F e)] (base : Buf (Elt F) ((sHi).view.loc (V d (cV L) (jV L)))) (fr : Buf (Elt F) ((rHi).view.loc (V d (cV L) (jV L))))
    (hn : S512.numel = S512.size gathers_S1000000_S512.axis')
    (hin : ∀ x, ((sHi).view.read (Elt F) ((sHi).view.writes (Elt F) base [⟨Rect.whole S512, (i2K L).view.read (Elt F) (m (iLoc d))⟩]) x).toNat < 1000000)
    (x : S512.Idx) :
    (rHi).view.read (Elt F) ((rHi).view.writes (Elt F) fr [⟨Rect.whole S512,
        SparseCore.gatherPayload gathers_S1000000_S512 ((tAllK).view.read (Elt F) (TAB m d))
          (SparseCore.rows ((sHi).view.read (Elt F) ((sHi).view.writes (Elt F) base [⟨Rect.whole S512, (i2K L).view.read (Elt F) (m (iLoc d))⟩])) hn hin)⟩]) x
      = (TAB m d : S1000000.Idx → Elt F .f32) (ValueIdx.ix1 (Cert.Spec.row (m (iLoc d) ((i2K L).view.emb x)))) := by
  rw [View.read_writes_whole]
  refine (Cert.LookupRead.gather_flat _ _ _ _ _ x).trans ?_
  rw [View.read_writes_whole, View.read_apply, View.read_apply]
  simp only [cast_eq]
  refine congrArg (TAB m d) ?_
  exact Cert.LookupRead.emb_unit_zero _ _

/-- A run of the result written with the gathered half is that run of the lookup. -/
theorem out_lo [∀ e, Nonempty (Elt F e)] (f0 : Buf (Elt F) (oLoc d)) (pay : S512.Idx → Elt F .f32)
    (hpay : ∀ x, pay x = (TAB m d : S1000000.Idx → Elt F .f32) (ValueIdx.ix1 (Cert.Spec.row (m (iLoc d) ((i1K L).view.emb x))))) :
    ((o1K L).view.loc (V d (cV L) (jV L)) ↦[(o1K L).view.set]{fullShare} (o1K L).view.writes (Elt F) f0 [⟨Rect.whole S512, pay⟩] : sProp 𝕄)
      = oLoc d ↦[halfSet (lo (jL L))]{fullShare} OUT m d := by
  rw [← pts_o1K (F := F) d L (OUT m d),
    pointsTo_rep (Ix := HIx 1) (Name := ℕ) (U := UU) (Lvl := ℕ) (V d (cV L) (jV L)) (o1K L) ((o1K L).view.writes (Elt F) f0 [⟨Rect.whole S512, pay⟩]) fullShare,
    pointsTo_rep (Ix := HIx 1) (Name := ℕ) (U := UU) (Lvl := ℕ) (V d (cV L) (jV L)) (o1K L) (OUT m d) fullShare, View.read_writes_whole]
  have e : pay = (o1K L).view.read (Elt F) (OUT m d) := by
    funext x
    rw [hpay x, View.read_apply]
    simp only [cast_eq]
    rfl
  rw [e]
theorem out_hi [∀ e, Nonempty (Elt F e)] (f0 : Buf (Elt F) (oLoc d)) (pay : S512.Idx → Elt F .f32)
    (hpay : ∀ x, pay x = (TAB m d : S1000000.Idx → Elt F .f32) (ValueIdx.ix1 (Cert.Spec.row (m (iLoc d) ((i2K L).view.emb x))))) :
    ((o2K L).view.loc (V d (cV L) (jV L)) ↦[(o2K L).view.set]{fullShare} (o2K L).view.writes (Elt F) f0 [⟨Rect.whole S512, pay⟩] : sProp 𝕄)
      = oLoc d ↦[halfSet (hi (jL L))]{fullShare} OUT m d := by
  rw [← pts_o2K (F := F) d L (OUT m d),
    pointsTo_rep (Ix := HIx 1) (Name := ℕ) (U := UU) (Lvl := ℕ) (V d (cV L) (jV L)) (o2K L) ((o2K L).view.writes (Elt F) f0 [⟨Rect.whole S512, pay⟩]) fullShare,
    pointsTo_rep (Ix := HIx 1) (Name := ℕ) (U := UU) (Lvl := ℕ) (V d (cV L) (jV L)) (o2K L) (OUT m d) fullShare, View.read_writes_whole]
  have e : pay = (o2K L).view.read (Elt F) (OUT m d) := by
    funext x
    rw [hpay x, View.read_apply]
    simp only [cast_eq]
    rfl
  rw [e]

set_option maxHeartbeats 4000000 in
theorem tile_body [∀ e, Nonempty (Elt F e)] (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileP m d (jL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L iV (Memref.isWhole_whole _) tV (Memref.isWhole_whole _) oV (Memref.isWhole_whole _)
            sV (Memref.isWhole_whole _) rV (Memref.isWhole_whole _) cc0_scratch2 cc0_scratch3 cc0_scratch4 cc0_scratch5 cc0_scratch6)
          fun _ => iprop(tileP m d (jL L) (OUT m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_kernel_eq_skeleton]; unfold cc0__gather_kernel_skel
  rw [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi1, Hi2, Ht, Ho1, Ho2⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hplan : Transfers.BatchOf (V d (cV L) (jV L)) (SemLoc.dma (sig := sig) cc0_scratch6.sem) 2 := trivial
  ihave Hi1' := (Entails.of_eq (pts_i1K (F := F) d L _).symm) $$ Hi1
  ihave Hi2' := (Entails.of_eq (pts_i2K (F := F) d L _).symm) $$ Hi2
  ihave Ho1' := (Entails.of_eq (pts_o1K (F := F) d L _).symm) $$ Ho1
  ihave Ho2' := (Entails.of_eq (pts_o2K (F := F) d L _).symm) $$ Ho2
  ihave Ht' := (pts_toks (F := F) d L _ _).1 $$ Ht
  icases Ht' with ⟨Ht2, Ht3, Htrest⟩
  ihave Hs' := (pts_sHalves (F := F) d L _).1 $$ Hs
  icases Hs' with ⟨Hs1, Hs2⟩
  ihave Hr' := (pts_rHalves (F := F) d L _).1 $$ Hr
  icases Hr' with ⟨Hr1, Hr2⟩
  sl_exec
  have hin1 := inb_lo m d L hpre (sLo).view.junk (tile_body.sl.dma0 m d L) rfl
  sl_exec
  have hin2 := inb_hi m d L hpre (sHi).view.junk (tile_body.sl.dma0_1 m d L) rfl
  sl_exec
  sl_step
  -- the two runs of the result hold the lookup
  ihave Ho1'' := (Entails.of_eq (out_lo (F := F) m d L (m (oLoc d)) (tile_body.sl.dma1 m d L fr hin1)
    (fun x => gathered_lo (F := F) m d L (sLo).view.junk fr _ hin1 x))) $$ Ho1'
  ihave Ho2'' := (Entails.of_eq (out_hi (F := F) m d L (m (oLoc d)) (tile_body.sl.dma2 m d L fr hin2)
    (fun x => gathered_hi (F := F) m d L (sHi).view.junk fr _ hin2 x))) $$ Ho2'
  isplitl [Hi1' Hi2' Ht2 Ht3 Htrest Ho1'' Ho2'']
  · isplitl [Hi1']; · iapply (Entails.of_eq (pts_i1K (F := F) d L _)); iexact Hi1'
    isplitl [Hi2']; · iapply (Entails.of_eq (pts_i2K (F := F) d L _)); iexact Hi2'
    isplitl [Ht2 Ht3 Htrest]
    · iapply (pts_toks (F := F) d L _ _).2
      isplitl [Ht2]; · iexact Ht2
      isplitl [Ht3]; · iexact Ht3
      iexact Htrest
    isplitl [Ho1'']; · iexact Ho1''
    iexact Ho2''
  isplitl [Hs1 Hs2 Hr1 Hr2 Hbufs]
  · isplitl [Hs1 Hs2]
    · iapply (join_sHalves (F := F) d L _ _)
      isplitl [Hs1]; · iexact Hs1
      iexact Hs2
    isplitl [Hr1 Hr2]
    · iapply (join_rHalves (F := F) d L _ _)
      isplitl [Hr1]; · iexact Hr1
      iexact Hr2
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) tV (Memref.isWhole_whole _) oV (Memref.isWhole_whole _)
          sV (Memref.isWhole_whole _) rV (Memref.isWhole_whole _) cc0_scratch2 cc0_scratch3 cc0_scratch4 cc0_scratch5 cc0_scratch6) ⟨⟩ c s := rfl

omit [FloatOps F] m ρ in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KI

end
-- ==== Proof.KI.Split.lean ====
/-
  How the call's operands split among the sixteen tiles and come back: the list and the result by their 32 runs, two
  to a tile; the table by read shares, one to a tile, the remainder set aside until the shares return.
-/
import proofs.«201894_g28389733827062_cont_9to1_257_7_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

/-- The 32 runs, taken two by two: runs `2j` and `2j + 1` for each of the sixteen `j`. -/
theorem bigSep_halves (Φ : Fin 32 → sProp 𝕄) :
    bigSep Finset.univ Φ = iprop((bigSep Finset.univ fun j : Fin 16 => Φ (lo j)) ∗ bigSep Finset.univ fun j : Fin 16 => Φ (hi j)) := by
  rw [bigSep_univ_equiv (finProdFinEquiv (m := 16) (n := 2)) Φ, bigSep_univ_prod, ← bigSep_sep']
  refine bigSep_congr fun j _ => ?_
  rw [bigSep_fin_two]
  have e0 : finProdFinEquiv (m := 16) (n := 2) (j, 0) = lo j := Fin.ext (by simp [finProdFinEquiv])
  have e1 : finProdFinEquiv (m := 16) (n := 2) (j, 1) = hi j := Fin.ext (by simp [finProdFinEquiv]; omega)
  rw [e0, e1]
  rfl

theorem iPts_halves (d : Dev nD) (f : Buf (Elt F) (iLoc d)) :
    (iLoc d ↦{fullShare} f : sProp 𝕄)
      = iprop((bigSep Finset.univ fun j : Fin 16 => iLoc d ↦[halfSet (lo j)]{fullShare} f) ∗ bigSep Finset.univ fun j : Fin 16 => iLoc d ↦[halfSet (hi j)]{fullShare} f) := by
  rw [← bigSep_halves (fun h => (iLoc d ↦[halfSet h]{fullShare} f : sProp 𝕄)),
    ← pointsTo_biUnion Finset.univ (ℓ := iLoc d) halfSet halves_disjoint, halves_cover]; try rfl
theorem oPts_halves (d : Dev nD) (f : Buf (Elt F) (oLoc d)) :
    (oLoc d ↦{fullShare} f : sProp 𝕄)
      = iprop((bigSep Finset.univ fun j : Fin 16 => oLoc d ↦[halfSet (lo j)]{fullShare} f) ∗ bigSep Finset.univ fun j : Fin 16 => oLoc d ↦[halfSet (hi j)]{fullShare} f) := by
  rw [← bigSep_halves (fun h => (oLoc d ↦[halfSet h]{fullShare} f : sProp 𝕄)),
    ← pointsTo_biUnion Finset.univ (ℓ := oLoc d) halfSet halves_disjoint, halves_cover]; try rfl

theorem tPts_toks (d : Dev nD) (f : Buf (Elt F) (tLoc d)) :
    (tLoc d ↦{fullShare} f : sProp 𝕄)
      ⊣⊢ iprop((tLoc d ↦{Transfers.shareDrop fullShare 16} f) ∗ bigSep Finset.univ fun j : Fin 16 => tLoc d ↦{tq j} f) :=
  Transfers.pointsTo_toks fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) => tileP m d (Fin.cast nSub_zero i) (m (oLoc d)))
      ∗ ((bigSep Finset.univ fun i : Fin ((K (F := F)).nSub 0) => tileP m d (Fin.cast nSub_zero i) (OUT m d))
          -∗ iprop(iPts m d ∗ tPts m d ∗ oPts d (OUT m d))))
  rw [bigSep_tasks (F := F) (fun j => tileP m d j (m (oLoc d))), bigSep_tasks (F := F) (fun j => tileP m d j (OUT m d))]
  unfold tileP
  rw [bigSep_sep', bigSep_sep', bigSep_sep', bigSep_sep', bigSep_sep', bigSep_sep', bigSep_sep', bigSep_sep']
  unfold iPts oPts iHalf oHalf tTok tPts
  rw [iPts_halves, oPts_halves d (m (oLoc d)), oPts_halves d (OUT m d)]
  iintro ⟨⟨HA, HB⟩, Ht, ⟨HD, HE⟩⟩
  ihave Ht' := (tPts_toks (F := F) d _).1 $$ Ht
  icases Ht' with ⟨Hdrop, HC⟩
  imodintro
  isplitl [HA HB HC HD HE]
  · isplitl [HA]; · iexact HA
    isplitl [HB]; · iexact HB
    isplitl [HC]; · iexact HC
    isplitl [HD]; · iexact HD
    iexact HE
  iintro ⟨HA, HB, HC, HD, HE⟩
  isplitl [HA HB]
  · isplitl [HA]; · iexact HA
    iexact HB
  isplitl [Hdrop HC]
  · iapply (tPts_toks (F := F) d _).2
    isplitl [Hdrop]; · iexact Hdrop
    iexact HC
  isplitl [HD]; · iexact HD
  iexact HE

end Cert.Proof.KI

end
-- ==== Proof.KI.Launch.lean ====
/-
  The launch: the ghost state's launch element, @main on the TensorCore (the table read flat, the call, the result
  re-laid as a column), how the final memory reads the claim, and the program's run — every weakly fair execution of
  the TensorCore, the two sequencers and the thirty-two tiles terminates with the arguments unchanged and the result
  the lookup.
-/
import proofs.«201894_g28389733827062_cont_9to1_257_7_alg».proof.Proof.KI.Body
import proofs.«201894_g28389733827062_cont_9to1_257_7_alg».proof.Proof.KI.Split
import proofs.«201894_g28389733827062_cont_9to1_257_7_alg».proof.Proof.LookupRead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000 EltTy.f32)
local notation "oV" => (Memref.whole Cert.KernelIdeal.main_v1_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.f32)

open Idealize.ShloMosaic.StableHlo (held held_split held_sdiff_result wp_hlo_within)

variable [FloatOps F]

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The TensorCore's arrays, all unscoped: the list, the table, the flat table, the result, the column. -/
abbrev S5 : Finset (DevRef τ sig) := {i', x', t', o', r'}

omit [FloatOps F] m ρ in
theorem held_S5 (d : Dev nD) (W : Valuation τ sig (Elt F)) :
    (held (T d) S5 W : sProp 𝕄)
      = iprop((iLoc d ↦{fullShare} W i') ∗ (xLoc d ↦{fullShare} W x') ∗ (tLoc d ↦{fullShare} W t')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (tLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

/-- The valuations: after the first re-layout, after the call, after the second re-layout. -/
def V1 (d : Dev nD) : Valuation τ sig (Elt F) := (opR1 (F := F)).result (V0 m d)
def V2 (d : Dev nD) : Valuation τ sig (Elt F) := Function.update (V1 m d) o' (OUT m d)
def V3 (d : Dev nD) : Valuation τ sig (Elt F) := (opR2 (F := F)).result (V2 m d)
/-- The program's result: the lookup re-laid as a column. -/
def RES (d : Dev nD) : Buf (Elt F) (rLoc d) := V3 m d r'

theorem V1_i (d : Dev nD) : V1 m d i' = m (iLoc d) := by
  unfold V1; rw [(opR1 (F := F)).result_of_not_mem _ (show i' ∉ ({t'} : Finset (DevRef τ sig)) by decide)]; rfl
theorem V1_x (d : Dev nD) : V1 m d x' = m (xLoc d) := by
  unfold V1; rw [(opR1 (F := F)).result_of_not_mem _ (show x' ∉ ({t'} : Finset (DevRef τ sig)) by decide)]; rfl
theorem V1_o (d : Dev nD) : V1 m d o' = m (oLoc d) := by
  unfold V1; rw [(opR1 (F := F)).result_of_not_mem _ (show o' ∉ ({t'} : Finset (DevRef τ sig)) by decide)]; rfl
theorem V1_r (d : Dev nD) : V1 m d r' = m (rLoc d) := by
  unfold V1; rw [(opR1 (F := F)).result_of_not_mem _ (show r' ∉ ({t'} : Finset (DevRef τ sig)) by decide)]; rfl
theorem V1_t (d : Dev nD) : V1 m d t' = TAB m d := rfl
theorem V2_i (d : Dev nD) : V2 m d i' = m (iLoc d) := (Function.update_of_ne (show i' ≠ o' by decide) _ _).trans (V1_i m d)
theorem V2_x (d : Dev nD) : V2 m d x' = m (xLoc d) := (Function.update_of_ne (show x' ≠ o' by decide) _ _).trans (V1_x m d)
theorem V2_t (d : Dev nD) : V2 m d t' = TAB m d := Function.update_of_ne (show t' ≠ o' by decide) _ _
theorem V2_r (d : Dev nD) : V2 m d r' = m (rLoc d) := (Function.update_of_ne (show r' ≠ o' by decide) _ _).trans (V1_r m d)
theorem V2_o (d : Dev nD) : V2 m d o' = OUT m d := Function.update_self _ _ _
theorem V3_i (d : Dev nD) : V3 m d i' = m (iLoc d) := by
  unfold V3; rw [(opR2 (F := F)).result_of_not_mem _ (show i' ∉ ({r'} : Finset (DevRef τ sig)) by decide)]; exact V2_i m d
theorem V3_x (d : Dev nD) : V3 m d x' = m (xLoc d) := by
  unfold V3; rw [(opR2 (F := F)).result_of_not_mem _ (show x' ∉ ({r'} : Finset (DevRef τ sig)) by decide)]; exact V2_x m d

theorem held_V1 (d : Dev nD) :
    (held (T d) S5 ((opR1 (F := F)).result (V0 m d)) : sProp 𝕄)
      = iprop(iPts m d ∗ xPts m d ∗ tPts m d ∗ oPts d (m (oLoc d)) ∗ rLoc d ↦{fullShare} m (rLoc d)) := by
  show held (SparseCore.T d) S5 (V1 m d) = _
  rw [held_S5, V1_i, V1_x, V1_o, V1_r, V1_t]
theorem held_V3 (d : Dev nD) :
    (held (T d) S5 ((opR2 (F := F)).result (V2 m d)) : sProp 𝕄)
      = iprop(iPts m d ∗ xPts m d ∗ (tLoc d ↦{fullShare} V3 m d t') ∗ (oLoc d ↦{fullShare} V3 m d o') ∗ rLoc d ↦{fullShare} RES m d) := by
  show held (SparseCore.T d) S5 (V3 m d) = _
  rw [held_S5, V3_i, V3_x]
  rfl

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (OUT m d)) :=
  bigSep_univ_of_subsingleton (0 : Fin 1)

omit m ρ in
theorem hR1 : (opR1 (F := F)).bufs ⊆ S5 := show ({x', t'} : Finset (DevRef τ sig)) ⊆ S5 by decide
omit m ρ in
theorem hR2 : (opR2 (F := F)).bufs ⊆ S5 := show ({o', r'} : Finset (DevRef τ sig)) ⊆ S5 by decide

/-- What @main leaves the claim: the list and the table at their launch contents, the column at the result. -/
abbrev FIN (d : Dev nD) : sProp 𝕄 := iprop(iPts m d ∗ xPts m d ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR1) (S := S5) hR1 (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Hx, Ht, Ho, Hr⟩
  iapply ((K (F := F)).wp_run (D (F := F)) 𝒱 (EH := EH) (P := P m) κ d 0) $$ [Hst Hi Ht Ho Hb Hx Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opR2) (S := S5) hR2 (V := V2 m d)) $$ [Hb Hi Hx Ht Ho Hr]
  · isplitl [Hb]; · iexact Hb
    rw [held_S5, V2_i, V2_x, V2_t, V2_o, V2_r]
    isplitl [Hi]; · iexact Hi
    isplitl [Hx]; · iexact Hx
    isplitl [Ht]; · iexact Ht
    isplitl [Ho]; · iexact Ho
    iexact Hr
  iintro ⟨Hb, Hheld⟩
  ihave Hh := (Entails.of_eq (held_V3 (F := F) m d)) $$ Hheld
  icases Hh with ⟨Hi, Hx, -, -, Hr⟩
  rw [wp_ret]; imodintro; imodintro
  isplitl [Hst]; · iexact Hst
  isplitl [Hi]; · iexact Hi
  isplitl [Hx]; · iexact Hx
  iexact Hr

def fq (d : Dev nD) (s' : Phys nD τ sig (Elt F)) : Prop :=
  s'.mem.mem (iLoc d) = m (iLoc d) ∧ s'.mem.mem (xLoc d) = m (xLoc d) ∧ s'.mem.mem (rLoc d) = RES m d

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (rLoc c) = RES m c ∧ r.2.mem (iLoc c) = m (iLoc c) ∧ r.2.mem (xLoc c) = m (xLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

/-! ## The result is the lookup -/

theorem RES_eq (d : Dev nD) : RES m d = Cert.Spec.G (m (iLoc d)) (m (xLoc d)) := by
  unfold RES V3
  rw [StableHlo.reshape_result, V2_o]
  unfold OUT TAB
  rw [StableHlo.reshape_result]
  exact Cert.LookupRead.reshape_lookup (m (iLoc d)) (V0 m d x') shapeCasts_S1000000x1_S1000000 shapeCasts_S16384_S16384x1

end Cert.Proof.KI

end
-- ==== Proof.KB.Setup.lean ====
/-
  The lookup kernel on the vector subcores: names for the program, the ghost state, the buffers, and what the
  launch's handshakes carry. Sixteen tiles each own 1024 consecutive entries of the index list and of the result,
  as two halves of 512; the table (the one-column array read flat) is read by all of them at once, each under its
  own read share. Tile `j` leaves in its two halves of the result the table's entries at its index words.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«201894_g28389733827062_cont_9to1_257_7_alg».proof.Proof.Gen.Kernel
import proofs.«201894_g28389733827062_cont_9to1_257_7_alg».proof.Proof.Gen.Kernel.Skeleton
import proofs.«201894_g28389733827062_cont_9to1_257_7_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

/-! ## The 32 runs of 512 entries

The list and the result have 16384 entries; run `h` is entries `512 h … 512 h + 511`. Tile `j` owns runs `2j` and
`2j + 1`. The runs are pairwise disjoint and cover the array. -/

omit m ρ in
theorem half_inb (h : Fin 32) : ∀ a, (![512 * h.val] : Fin 1 → Nat) a + S512.size a ≤ S16384.size a := by
  intro a
  obtain rfl : a = 0 := Subsingleton.elim _ _
  have := h.isLt
  show 512 * h.val + 512 ≤ 16384
  omega
abbrev halfR (h : Fin 32) : Rect S16384 := Rect.unit (s := S16384) ![512 * h.val] S512.size (half_inb h)
abbrev halfSet (h : Fin 32) : Finset S16384.Idx := (halfR h).set
abbrev lo (j : Fin 16) : Fin 32 := ⟨2 * j.val, by omega⟩
abbrev hi (j : Fin 16) : Fin 32 := ⟨2 * j.val + 1, by omega⟩

omit m ρ in
theorem mem_halfSet {h : Fin 32} {i : S16384.Idx} : i ∈ halfSet h ↔ 512 * h.val ≤ (i 0).val ∧ (i 0).val < 512 * h.val + 512 := by
  rw [Rect.mem_set_unit]
  constructor
  · intro H; exact H 0
  · intro H a
    obtain rfl : a = 0 := Subsingleton.elim _ _
    exact H

omit m ρ in
theorem halves_disjoint : ∀ h ∈ (Finset.univ : Finset (Fin 32)), ∀ h' ∈ (Finset.univ : Finset (Fin 32)), h ≠ h' → Disjoint (halfSet h) (halfSet h') := by
  intro h _ h' _ ne
  refine Rect.unit_disjoint (0 : Fin 1) ?_
  have hv : h.val ≠ h'.val := fun e => ne (Fin.ext e)
  show 512 * h.val + 512 ≤ 512 * h'.val ∨ 512 * h'.val + 512 ≤ 512 * h.val
  omega

omit m ρ in
theorem halves_cover : (Finset.univ : Finset (Fin 32)).biUnion halfSet = Finset.univ := by
  ext i
  simp only [Finset.mem_biUnion, Finset.mem_univ, true_and, iff_true]
  have hi : (i 0).val < 16384 := (i 0).isLt
  exact ⟨⟨(i 0).val / 512, by omega⟩, mem_halfSet.mpr ⟨by show 512 * ((i 0).val / 512) ≤ _; omega, by show _ < 512 * ((i 0).val / 512) + 512; omega⟩⟩

variable [FloatOps F]

/-! ## The values -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two host operations: the table read flat before the call, the result re-laid as a column after it. -/
abbrev opR1 : HloOp τ sig (Elt F) := StableHlo.reshape main_arg1 main_v0 rfl shapeCasts_S1000000x1_S1000000
abbrev opR2 : HloOp τ sig (Elt F) := StableHlo.reshape main_v1 main_v2 rfl shapeCasts_S16384_S16384x1

/-- The launch valuation of the TensorCore's arrays. -/
def V0 (d : Dev nD) : Valuation τ sig (Elt F) := fun b => m (d, b)
/-- The table as the kernel reads it: the one-column array, flat. -/
def TAB (d : Dev nD) : Buf (Elt F) (tLoc d) := (opR1 (F := F)).result (V0 m d) t'
/-- What the kernel leaves in its result: entry `k` is the table's entry at the row the list's word `k` names. -/
def OUT (d : Dev nD) : Buf (Elt F) (oLoc d) :=
  fun k => (TAB m d : S1000000.Idx → Elt F .f32) (ValueIdx.ix1 (Cert.Spec.row (m (iLoc d) k)))

/-- What the proof asks of the launch memory: every word of the list names a row of the table. -/
def PreOK : Prop := ∀ d : Dev nD, Cert.Spec.InRange (m (iLoc d))

/-! ## What the handshakes carry -/

abbrev iPts (d : Dev nD) : sProp 𝕄 := iLoc d ↦{fullShare} m (iLoc d)
abbrev xPts (d : Dev nD) : sProp 𝕄 := xLoc d ↦{fullShare} m (xLoc d)
abbrev tPts (d : Dev nD) : sProp 𝕄 := tLoc d ↦{fullShare} TAB m d
abbrev oPts (d : Dev nD) (f : Buf (Elt F) (oLoc d)) : sProp 𝕄 := oLoc d ↦{fullShare} f
abbrev iHalf (d : Dev nD) (h : Fin 32) : sProp 𝕄 := iLoc d ↦[halfSet h]{fullShare} m (iLoc d)
abbrev oHalf (d : Dev nD) (h : Fin 32) (f : Buf (Elt F) (oLoc d)) : sProp 𝕄 := oLoc d ↦[halfSet h]{fullShare} f
/-- Tile `j`'s read share of the table. -/
abbrev tq (j : Fin 16) : PosShare TreeShare := Transfers.shareTok fullShare 16 j
abbrev tTok (d : Dev nD) (j : Fin 16) : sProp 𝕄 := tLoc d ↦{tq j} TAB m d

/-- What tile `j` is handed and hands back: its two runs of the list, its read share of the table, its two runs of
    the result at contents `f`. -/
abbrev tileP (d : Dev nD) (j : Fin 16) (f : Buf (Elt F) (oLoc d)) : sProp 𝕄 :=
  iprop(iHalf m d (lo j) ∗ iHalf m d (hi j) ∗ tTok m d j ∗ oHalf d (lo j) f ∗ oHalf d (hi j) f)

/-- The one call takes the list, the flat table and the result whole, and brings them back, the result at the lookup;
    each task takes its runs and its share, and brings them back, its runs of the result at the lookup. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (OUT m d))
  go := fun q d _ i => match q with | 0 => tileP m d (Fin.cast nSub_zero i) (m (oLoc d))
  td := fun q d _ i => match q with | 0 => tileP m d (Fin.cast nSub_zero i) (OUT m d)
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (OUT m d)))
  go q d _ i := match q with
    | 0 => (inferInstance : BI.Storable (upEmb : UEmb _ 𝕄) (tileP m d (Fin.cast nSub_zero i) (m (oLoc d))))
  td q d _ i := match q with
    | 0 => (inferInstance : BI.Storable (upEmb : UEmb _ 𝕄) (tileP m d (Fin.cast nSub_zero i) (OUT m d)))

end Cert.Proof.KB

end
-- ==== Proof.KB.Geometry.lean ====
/-
  The geometry of one tile's task: its two runs of the list and of the result as the program slices them (from the
  printed offsets), the two halves of each scratch buffer, the gather read at an entry, and the resources of the
  tile restated in the forms the program names them by.
-/
import proofs.«201894_g28389733827062_cont_9to1_257_7_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

variable (d : Dev nD) (L : grid0.Coords)

abbrev cV (L : grid0.Coords) : Fin τ.nSC := (L 0).castLE hcore0
abbrev jV (L : grid0.Coords) : Fin τ.nSub := (L 1).castLE hsub0
omit m ρ in
theorem bound_one : grid0.bound 1 = 16 := rfl
abbrev jL (L : grid0.Coords) : Fin 16 := Fin.cast bound_one (L 1)

/-- The program's two slices of a 16384-entry array at the tile's offsets, and its slices of the scratch buffers. -/
abbrev r1 (L : grid0.Coords) : Rect S16384 := Rect.unit (s := S16384) (k0_off1 L) S512.size (k0_off1_inb L)
abbrev r2 (L : grid0.Coords) : Rect S16384 := Rect.unit (s := S16384) (k0_off2 L) S512.size (k0_off2_inb L)
abbrev i1K (L : grid0.Coords) : Memref sig .scVector .hbm S512 .i32 := (iV).slice (r1 L) (fun _ => rfl)
abbrev i2K (L : grid0.Coords) : Memref sig .scVector .hbm S512 .i32 := (iV).slice (r2 L) (fun _ => rfl)
abbrev o1K (L : grid0.Coords) : Memref sig .scVector .hbm S512 .f32 := (oV).slice (r1 L) (fun _ => rfl)
abbrev o2K (L : grid0.Coords) : Memref sig .scVector .hbm S512 .f32 := (oV).slice (r2 L) (fun _ => rfl)
abbrev tAllK : Memref sig .scVector .hbm S1000000 .f32 := (tV).slice (Rect.unit (s := S1000000) ![0] S1000000.size inb_S1000000_S1000000_0) (fun _ => rfl)
abbrev qLo : Rect S1024 := Rect.unit (s := S1024) ![0] S512.size inb_S1024_S512_0
abbrev qHi : Rect S1024 := Rect.unit (s := S1024) ![512] S512.size inb_S1024_S512_512
abbrev sLo : Memref sig .scVector .vmem S512 .i32 := (sV).slice qLo (fun _ => rfl)
abbrev sHi : Memref sig .scVector .vmem S512 .i32 := (sV).slice qHi (fun _ => rfl)
abbrev rLo : Memref sig .scVector .vmem S512 .f32 := (rV).slice qLo (fun _ => rfl)
abbrev rHi : Memref sig .scVector .vmem S512 .f32 := (rV).slice qHi (fun _ => rfl)

/-! ## The tile's runs are runs `2j` and `2j + 1` -/

omit m ρ in
theorem L0_zero : (L 0).val = 0 := Nat.lt_one_iff.mp (L 0).isLt

omit m ρ in
theorem set_r1 : (r1 L).set = halfSet (lo (jL L)) := by
  ext i
  rw [Rect.mem_set_unit, mem_halfSet, k0_off1_eq]
  have h0 := L0_zero L
  constructor
  · intro H
    have := H 0
    simp only [Matrix.cons_val_zero] at this
    show 512 * (2 * (L 1).val) ≤ _ ∧ _ < 512 * (2 * (L 1).val) + 512
    have e : S512.size 0 = 512 := rfl
    omega
  · intro H a
    obtain rfl : a = 0 := Subsingleton.elim _ _
    have H' : 512 * (2 * (L 1).val) ≤ (i 0).val ∧ (i 0).val < 512 * (2 * (L 1).val) + 512 := H
    simp only [Matrix.cons_val_zero]
    have e : S512.size 0 = 512 := rfl
    omega

omit m ρ in
theorem set_r2 : (r2 L).set = halfSet (hi (jL L)) := by
  ext i
  rw [Rect.mem_set_unit, mem_halfSet, k0_off2_eq]
  have h0 := L0_zero L
  constructor
  · intro H
    have := H 0
    simp only [Matrix.cons_val_zero] at this
    show 512 * (2 * (L 1).val + 1) ≤ _ ∧ _ < 512 * (2 * (L 1).val + 1) + 512
    have e : S512.size 0 = 512 := rfl
    omega
  · intro H a
    obtain rfl : a = 0 := Subsingleton.elim _ _
    have H' : 512 * (2 * (L 1).val + 1) ≤ (i 0).val ∧ (i 0).val < 512 * (2 * (L 1).val + 1) + 512 := H
    simp only [Matrix.cons_val_zero]
    have e : S512.size 0 = 512 := rfl
    omega

omit m ρ in
theorem set_i1K : (i1K L).view.set = halfSet (lo (jL L)) := (View.set_slice_whole _ _).trans (set_r1 L)
omit m ρ in
theorem set_i2K : (i2K L).view.set = halfSet (hi (jL L)) := (View.set_slice_whole _ _).trans (set_r2 L)
omit m ρ in
theorem set_o1K : (o1K L).view.set = halfSet (lo (jL L)) := (View.set_slice_whole _ _).trans (set_r1 L)
omit m ρ in
theorem set_o2K : (o2K L).view.set = halfSet (hi (jL L)) := (View.set_slice_whole _ _).trans (set_r2 L)

omit m ρ in
theorem pts_i1K (f : Buf (Elt F) (iLoc d)) :
    ((i1K L).view.loc (V d (cV L) (jV L)) ↦[(i1K L).view.set]{fullShare} f : sProp 𝕄) = iLoc d ↦[halfSet (lo (jL L))]{fullShare} f := by
  rw [set_i1K]
omit m ρ in
theorem pts_i2K (f : Buf (Elt F) (iLoc d)) :
    ((i2K L).view.loc (V d (cV L) (jV L)) ↦[(i2K L).view.set]{fullShare} f : sProp 𝕄) = iLoc d ↦[halfSet (hi (jL L))]{fullShare} f := by
  rw [set_i2K]
omit m ρ in
theorem pts_o1K (f : Buf (Elt F) (oLoc d)) :
    ((o1K L).view.loc (V d (cV L) (jV L)) ↦[(o1K L).view.set]{fullShare} f : sProp 𝕄) = oLoc d ↦[halfSet (lo (jL L))]{fullShare} f := by
  rw [set_o1K]
omit m ρ in
theorem pts_o2K (f : Buf (Elt F) (oLoc d)) :
    ((o2K L).view.loc (V d (cV L) (jV L)) ↦[(o2K L).view.set]{fullShare} f : sProp 𝕄) = oLoc d ↦[halfSet (hi (jL L))]{fullShare} f := by
  rw [set_o2K]
omit m ρ in
theorem pts_tV (q : PosShare TreeShare) (f : Buf (Elt F) (tLoc d)) :
    ((tV).view.loc (V d (cV L) (jV L)) ↦{q} f : sProp 𝕄) = tLoc d ↦{q} f := rfl

/-! ## A scratch buffer is its two halves -/

omit m ρ in
theorem q_disjoint : Disjoint (qLo).set (qHi).set := Rect.unit_disjoint (0 : Fin 1) (Or.inl (by decide))
omit m ρ in
theorem q_cover : (qLo).set ∪ (qHi).set = (Finset.univ : Finset S1024.Idx) := by
  ext i
  simp only [Finset.mem_union, Finset.mem_univ, iff_true, Rect.mem_set_unit]
  have hi : (i 0).val < 1024 := (i 0).isLt
  by_cases h : (i 0).val < 512
  · left; intro a; obtain rfl : a = 0 := Subsingleton.elim _ _
    exact ⟨Nat.zero_le _, by show (i 0).val < 0 + 512; omega⟩
  · right; intro a; obtain rfl : a = 0 := Subsingleton.elim _ _
    exact ⟨by show 512 ≤ (i 0).val; omega, by show (i 0).val < 512 + 512; omega⟩

omit m ρ in
theorem pts_sHalves (f : Buf (Elt F) ((V d (cV L) (jV L)).loc cc0_scratch0)) :
    ((V d (cV L) (jV L)).loc cc0_scratch0 ↦{fullShare} f : sProp 𝕄)
      ⊣⊢ iprop(((sLo).view.loc (V d (cV L) (jV L)) ↦[(sLo).view.set]{fullShare} f) ∗ ((sHi).view.loc (V d (cV L) (jV L)) ↦[(sHi).view.set]{fullShare} f)) := by
  have e1 : (sLo).view.set = (qLo).set := View.set_slice_whole _ _
  have e2 : (sHi).view.set = (qHi).set := View.set_slice_whole _ _
  rw [e1, e2]
  have h : ((V d (cV L) (jV L)).loc cc0_scratch0 ↦[(qLo).set ∪ (qHi).set]{fullShare} f : sProp 𝕄)
      ⊣⊢ iprop(((V d (cV L) (jV L)).loc cc0_scratch0 ↦[(qLo).set]{fullShare} f) ∗ ((V d (cV L) (jV L)).loc cc0_scratch0 ↦[(qHi).set]{fullShare} f)) :=
    pointsTo_union q_disjoint
  rw [q_cover] at h
  exact h

omit m ρ in
theorem pts_rHalves (f : Buf (Elt F) ((V d (cV L) (jV L)).loc cc0_scratch1)) :
    ((V d (cV L) (jV L)).loc cc0_scratch1 ↦{fullShare} f : sProp 𝕄)
      ⊣⊢ iprop(((rLo).view.loc (V d (cV L) (jV L)) ↦[(rLo).view.set]{fullShare} f) ∗ ((rHi).view.loc (V d (cV L) (jV L)) ↦[(rHi).view.set]{fullShare} f)) := by
  have e1 : (rLo).view.set = (qLo).set := View.set_slice_whole _ _
  have e2 : (rHi).view.set = (qHi).set := View.set_slice_whole _ _
  rw [e1, e2]
  have h : ((V d (cV L) (jV L)).loc cc0_scratch1 ↦[(qLo).set ∪ (qHi).set]{fullShare} f : sProp 𝕄)
      ⊣⊢ iprop(((V d (cV L) (jV L)).loc cc0_scratch1 ↦[(qLo).set]{fullShare} f) ∗ ((V d (cV L) (jV L)).loc cc0_scratch1 ↦[(qHi).set]{fullShare} f)) :=
    pointsTo_union q_disjoint
  rw [q_cover] at h
  exact h

/-- The two halves, at whatever each holds, are the buffer at some contents. -/
theorem join_sHalves (g1 g2 : Buf (Elt F) ((V d (cV L) (jV L)).loc cc0_scratch0)) :
    iprop(((sLo).view.loc (V d (cV L) (jV L)) ↦[(sLo).view.set]{fullShare} g1) ∗ ((sHi).view.loc (V d (cV L) (jV L)) ↦[(sHi).view.set]{fullShare} g2))
      ⊢ (iprop(∃ f, (V d (cV L) (jV L)).loc cc0_scratch0 ↦{fullShare} f) : sProp 𝕄) := by
  have e1 : (sLo).view.set = (qLo).set := View.set_slice_whole _ _
  have e2 : (sHi).view.set = (qHi).set := View.set_slice_whole _ _
  rw [e1, e2]
  have h : iprop(((V d (cV L) (jV L)).loc cc0_scratch0 ↦[(qLo).set]{fullShare} g1) ∗ ((V d (cV L) (jV L)).loc cc0_scratch0 ↦[(qHi).set]{fullShare} g2))
      ⊢ ((V d (cV L) (jV L)).loc cc0_scratch0 ↦[(qLo).set ∪ (qHi).set]{fullShare} ((qHi).set.piecewise g2 g1) : sProp 𝕄) :=
    pointsTo_join q_disjoint
  rw [q_cover] at h
  refine h.trans ?_
  iintro H
  iexists _
  iexact H

theorem join_rHalves (g1 g2 : Buf (Elt F) ((V d (cV L) (jV L)).loc cc0_scratch1)) :
    iprop(((rLo).view.loc (V d (cV L) (jV L)) ↦[(rLo).view.set]{fullShare} g1) ∗ ((rHi).view.loc (V d (cV L) (jV L)) ↦[(rHi).view.set]{fullShare} g2))
      ⊢ (iprop(∃ f, (V d (cV L) (jV L)).loc cc0_scratch1 ↦{fullShare} f) : sProp 𝕄) := by
  have e1 : (rLo).view.set = (qLo).set := View.set_slice_whole _ _
  have e2 : (rHi).view.set = (qHi).set := View.set_slice_whole _ _
  rw [e1, e2]
  have h : iprop(((V d (cV L) (jV L)).loc cc0_scratch1 ↦[(qLo).set]{fullShare} g1) ∗ ((V d (cV L) (jV L)).loc cc0_scratch1 ↦[(qHi).set]{fullShare} g2))
      ⊢ ((V d (cV L) (jV L)).loc cc0_scratch1 ↦[(qLo).set ∪ (qHi).set]{fullShare} ((qHi).set.piecewise g2 g1) : sProp 𝕄) :=
    pointsTo_join q_disjoint
  rw [q_cover] at h
  refine h.trans ?_
  iintro H
  iexists _
  iexact H

/-! ## The tile's read share of the table, as one token per gather in flight and the rest -/

omit m ρ in
theorem bigSep_range4 (Φ : ℕ → sProp 𝕄) : bigSep (Finset.range 4) Φ = iprop(Φ 3 ∗ Φ 2 ∗ Φ 1 ∗ Φ 0) := by
  rw [Finset.range_add_one, SparseCore.bigSep_insert' Finset.notMem_range_self,
    Finset.range_add_one, SparseCore.bigSep_insert' Finset.notMem_range_self,
    Finset.range_add_one, SparseCore.bigSep_insert' Finset.notMem_range_self,
    Finset.range_one, bigSep_singleton]

/-- What is left of a share once the two gathers' tokens are taken out. -/
abbrev tRest (q : PosShare TreeShare) (f : Buf (Elt F) (tLoc d)) : sProp 𝕄 :=
  iprop((tLoc d ↦{Transfers.shareDrop q 4} f) ∗ (tLoc d ↦{Transfers.shareTokN q 1} f) ∗ (tLoc d ↦{Transfers.shareTokN q 0} f))

omit m ρ in
theorem pts_toks (q : PosShare TreeShare) (f : Buf (Elt F) (tLoc d)) :
    (tLoc d ↦{q} f : sProp 𝕄)
      ⊣⊢ iprop(((tV).view.loc (V d (cV L) (jV L)) ↦{Transfers.shareTokN q 2} f) ∗ ((tV).view.loc (V d (cV L) (jV L)) ↦{Transfers.shareTokN q 3} f) ∗ tRest d q f) := by
  have h : (tLoc d ↦{q} f : sProp 𝕄) ⊣⊢ iprop((tLoc d ↦{Transfers.shareDrop q 4} f) ∗ bigSep (Finset.range 4) (fun i => tLoc d ↦{Transfers.shareTokN q i} f)) :=
    Transfers.pointsTo_toks_range q 4
  rw [bigSep_range4] at h
  refine ⟨h.1.trans ?_, BIBase.Entails.trans ?_ h.2⟩
  · iintro ⟨Hd, H3, H2, H1, H0⟩
    isplitl [H2]; · iexact H2
    isplitl [H3]; · iexact H3
    isplitl [Hd]; · iexact Hd
    isplitl [H1]; · iexact H1
    iexact H0
  · iintro ⟨H2, H3, Hd, H1, H0⟩
    isplitl [Hd]; · iexact Hd
    isplitl [H3]; · iexact H3
    isplitl [H2]; · iexact H2
    isplitl [H1]; · iexact H1
    iexact H0

end Cert.Proof.KB

end
-- ==== Proof.KB.Body.lean ====
/-
  One tile's task. The tile copies its two runs of the index list into the two halves of its list buffer, gathers
  for each half the table's entries the words name into the matching half of its value buffer, and copies each half
  out to its run of the result. Every word of the list names a row of the table, so both gathers are served to the
  end; when the task ends, the tile's two runs of the result hold the table's entries at its words, and everything
  it was lent is back.
-/
import proofs.«201894_g28389733827062_cont_9to1_257_7_alg».proof.Proof.KB.Geometry
import proofs.«201894_g28389733827062_cont_9to1_257_7_alg».proof.Proof.LookupRead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

variable [FloatOps F]

section Tile

variable (d : Dev nD) (L : grid0.Coords)

abbrev cell (k : DmaSems sig S_) (d : Dev nD) (c : Fin τ.nSC) (i : Fin τ.nSub) : GSem nD τ sig := (V d c i, .dma k.sem)

omit m ρ in
theorem cell_ne {k k' : DmaSem sig} (h : k ≠ k') : (((V d (cV L) (jV L)), SemLoc.dma k) : GSem nD τ sig) ≠ ((V d (cV L) (jV L)), SemLoc.dma k') :=
  fun e => h (SemLoc.dma.inj (Prod.mk.inj e).2)

omit m ρ in
/-- The tile's five transfer semaphores are among its own: they are them, and the rest. -/
theorem ownSems0_V :
    (ownSems0 (V d (cV L) (jV L)) : sProp 𝕄)
      = iprop(semVal (cell cc0_scratch2 d (cV L) (jV L)) 0 ∗ semVal (cell cc0_scratch3 d (cV L) (jV L)) 0 ∗ semVal (cell cc0_scratch4 d (cV L) (jV L)) 0 ∗ semVal (cell cc0_scratch5 d (cV L) (jV L)) 0 ∗ semVal (cell cc0_scratch6 d (cV L) (jV L)) 0
          ∗ bigSep ((((((ownCells (V d (cV L) (jV L))).erase (cell cc0_scratch2 d (cV L) (jV L))).erase (cell cc0_scratch3 d (cV L) (jV L))).erase (cell cc0_scratch4 d (cV L) (jV L))).erase (cell cc0_scratch5 d (cV L) (jV L))).erase (cell cc0_scratch6 d (cV L) (jV L))) fun g => semVal g 0) := by
  unfold SparseCore.Cfg.ownSems0
  rw [SparseCore.bigSep_erase' ((mem_ownCells (g := (cell cc0_scratch2 d (cV L) (jV L)))).mpr ⟨rfl, by show (SemLoc.dma cc0_scratch2.sem : SemLoc sig).isScoped .scVector = true; decide⟩),
    SparseCore.bigSep_erase' (Finset.mem_erase.mpr ⟨cell_ne d L (by decide : (cc0_scratch3.sem : DmaSem sig) ≠ cc0_scratch2.sem), (mem_ownCells (g := (cell cc0_scratch3 d (cV L) (jV L)))).mpr ⟨rfl, by show (SemLoc.dma cc0_scratch3.sem : SemLoc sig).isScoped .scVector = true; decide⟩⟩),
    SparseCore.bigSep_erase' (Finset.mem_erase.mpr ⟨cell_ne d L (by decide : (cc0_scratch4.sem : DmaSem sig) ≠ cc0_scratch3.sem), Finset.mem_erase.mpr ⟨cell_ne d L (by decide : (cc0_scratch4.sem : DmaSem sig) ≠ cc0_scratch2.sem), (mem_ownCells (g := (cell cc0_scratch4 d (cV L) (jV L)))).mpr ⟨rfl, by show (SemLoc.dma cc0_scratch4.sem : SemLoc sig).isScoped .scVector = true; decide⟩⟩⟩),
    SparseCore.bigSep_erase' (Finset.mem_erase.mpr ⟨cell_ne d L (by decide : (cc0_scratch5.sem : DmaSem sig) ≠ cc0_scratch4.sem), Finset.mem_erase.mpr ⟨cell_ne d L (by decide : (cc0_scratch5.sem : DmaSem sig) ≠ cc0_scratch3.sem), Finset.mem_erase.mpr ⟨cell_ne d L (by decide : (cc0_scratch5.sem : DmaSem sig) ≠ cc0_scratch2.sem), (mem_ownCells (g := (cell cc0_scratch5 d (cV L) (jV L)))).mpr ⟨rfl, by show (SemLoc.dma cc0_scratch5.sem : SemLoc sig).isScoped .scVector = true; decide⟩⟩⟩⟩),
    SparseCore.bigSep_erase' (Finset.mem_erase.mpr ⟨cell_ne d L (by decide : (cc0_scratch6.sem : DmaSem sig) ≠ cc0_scratch5.sem), Finset.mem_erase.mpr ⟨cell_ne d L (by decide : (cc0_scratch6.sem : DmaSem sig) ≠ cc0_scratch4.sem), Finset.mem_erase.mpr ⟨cell_ne d L (by decide : (cc0_scratch6.sem : DmaSem sig) ≠ cc0_scratch3.sem), Finset.mem_erase.mpr ⟨cell_ne d L (by decide : (cc0_scratch6.sem : DmaSem sig) ≠ cc0_scratch2.sem), (mem_ownCells (g := (cell cc0_scratch6 d (cV L) (jV L)))).mpr ⟨rfl, by show (SemLoc.dma cc0_scratch6.sem : SemLoc sig).isScoped .scVector = true; decide⟩⟩⟩⟩⟩)]

omit m ρ [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A run of the list fetched into a half of the list buffer: every word there names a row of the table. -/
theorem inb_lo [∀ e, Nonempty (Elt F e)] (hpre : PreOK m) (base : Buf (Elt F) ((sLo).view.loc (V d (cV L) (jV L)))) (pay : S512.Idx → Elt F .i32)
    (hpay : pay = (i1K L).view.read (Elt F) (m (iLoc d))) :
    ∀ x, ((sLo).view.read (Elt F) ((sLo).view.writes (Elt F) base [⟨Rect.whole S512, pay⟩]) x).toNat < 1000000 := by
  subst hpay; intro x
  rw [View.read_writes_whole, View.read_apply]
  simp only [cast_eq]
  exact hpre d _
theorem inb_hi [∀ e, Nonempty (Elt F e)] (hpre : PreOK m) (base : Buf (Elt F) ((sHi).view.loc (V d (cV L) (jV L)))) (pay : S512.Idx → Elt F .i32)
    (hpay : pay = (i2K L).view.read (Elt F) (m (iLoc d))) :
    ∀ x, ((sHi).view.read (Elt F) ((sHi).view.writes (Elt F) base [⟨Rect.whole S512, pay⟩]) x).toNat < 1000000 := by
  subst hpay; intro x
  rw [View.read_writes_whole, View.read_apply]
  simp only [cast_eq]
  exact hpre d _

/-! ## What a half of the result holds when its copy has landed -/

/-- A gathered half read at an entry: the table's entry at the row the list's word there names. -/
theorem gathered_lo [∀ e, Nonempty (Elt F e)] (base : Buf (Elt F) ((sLo).view.loc (V d (cV L) (jV L)))) (fr : Buf (Elt F) ((rLo).view.loc (V d (cV L) (jV L))))
    (hn : S512.numel = S512.size gathers_S1000000_S512.axis')
    (hin : ∀ x, ((sLo).view.read (Elt F) ((sLo).view.writes (Elt F) base [⟨Rect.whole S512, (i1K L).view.read (Elt F) (m (iLoc d))⟩]) x).toNat < 1000000)
    (x : S512.Idx) :
    (rLo).view.read (Elt F) ((rLo).view.writes (Elt F) fr [⟨Rect.whole S512,
        SparseCore.gatherPayload gathers_S1000000_S512 ((tAllK).view.read (Elt F) (TAB m d))
          (SparseCore.rows ((sLo).view.read (Elt F) ((sLo).view.writes (Elt F) base [⟨Rect.whole S512, (i1K L).view.read (Elt F) (m (iLoc d))⟩])) hn hin)⟩]) x
      = (TAB m d : S1000000.Idx → Elt F .f32) (ValueIdx.ix1 (Cert.Spec.row (m (iLoc d) ((i1K L).view.emb x)))) := by
  rw [View.read_writes_whole]
  refine (Cert.LookupRead.gather_flat _ _ _ _ _ x).trans ?_
  rw [View.read_writes_whole, View.read_apply, View.read_apply]
  simp only [cast_eq]
  refine congrArg (TAB m d) ?_
  exact Cert.LookupRead.emb_unit_zero _ _

theorem gathered_hi [∀ e, Nonempty (Elt F e)] (base : Buf (Elt F) ((sHi).view.loc (V d (cV L) (jV L)))) (fr : Buf (Elt F) ((rHi).view.loc (V d (cV L) (jV L))))
    (hn : S512.numel = S512.size gathers_S1000000_S512.axis')
    (hin : ∀ x, ((sHi).view.read (Elt F) ((sHi).view.writes (Elt F) base [⟨Rect.whole S512, (i2K L).view.read (Elt F) (m (iLoc d))⟩]) x).toNat < 1000000)
    (x : S512.Idx) :
    (rHi).view.read (Elt F) ((rHi).view.writes (Elt F) fr [⟨Rect.whole S512,
        SparseCore.gatherPayload gathers_S1000000_S512 ((tAllK).view.read (Elt F) (TAB m d))
          (SparseCore.rows ((sHi).view.read (Elt F) ((sHi).view.writes (Elt F) base [⟨Rect.whole S512, (i2K L).view.read (Elt F) (m (iLoc d))⟩])) hn hin)⟩]) x
      = (TAB m d : S1000000.Idx → Elt F .f32) (ValueIdx.ix1 (Cert.Spec.row (m (iLoc d) ((i2K L).view.emb x)))) := by
  rw [View.read_writes_whole]
  refine (Cert.LookupRead.gather_flat _ _ _ _ _ x).trans ?_
  rw [View.read_writes_whole, View.read_apply, View.read_apply]
  simp only [cast_eq]
  refine congrArg (TAB m d) ?_
  exact Cert.LookupRead.emb_unit_zero _ _

/-- A run of the result written with the gathered half is that run of the lookup. -/
theorem out_lo [∀ e, Nonempty (Elt F e)] (f0 : Buf (Elt F) (oLoc d)) (pay : S512.Idx → Elt F .f32)
    (hpay : ∀ x, pay x = (TAB m d : S1000000.Idx → Elt F .f32) (ValueIdx.ix1 (Cert.Spec.row (m (iLoc d) ((i1K L).view.emb x))))) :
    ((o1K L).view.loc (V d (cV L) (jV L)) ↦[(o1K L).view.set]{fullShare} (o1K L).view.writes (Elt F) f0 [⟨Rect.whole S512, pay⟩] : sProp 𝕄)
      = oLoc d ↦[halfSet (lo (jL L))]{fullShare} OUT m d := by
  rw [← pts_o1K (F := F) d L (OUT m d),
    pointsTo_rep (Ix := HIx 1) (Name := ℕ) (U := UU) (Lvl := ℕ) (V d (cV L) (jV L)) (o1K L) ((o1K L).view.writes (Elt F) f0 [⟨Rect.whole S512, pay⟩]) fullShare,
    pointsTo_rep (Ix := HIx 1) (Name := ℕ) (U := UU) (Lvl := ℕ) (V d (cV L) (jV L)) (o1K L) (OUT m d) fullShare, View.read_writes_whole]
  have e : pay = (o1K L).view.read (Elt F) (OUT m d) := by
    funext x
    rw [hpay x, View.read_apply]
    simp only [cast_eq]
    rfl
  rw [e]
theorem out_hi [∀ e, Nonempty (Elt F e)] (f0 : Buf (Elt F) (oLoc d)) (pay : S512.Idx → Elt F .f32)
    (hpay : ∀ x, pay x = (TAB m d : S1000000.Idx → Elt F .f32) (ValueIdx.ix1 (Cert.Spec.row (m (iLoc d) ((i2K L).view.emb x))))) :
    ((o2K L).view.loc (V d (cV L) (jV L)) ↦[(o2K L).view.set]{fullShare} (o2K L).view.writes (Elt F) f0 [⟨Rect.whole S512, pay⟩] : sProp 𝕄)
      = oLoc d ↦[halfSet (hi (jL L))]{fullShare} OUT m d := by
  rw [← pts_o2K (F := F) d L (OUT m d),
    pointsTo_rep (Ix := HIx 1) (Name := ℕ) (U := UU) (Lvl := ℕ) (V d (cV L) (jV L)) (o2K L) ((o2K L).view.writes (Elt F) f0 [⟨Rect.whole S512, pay⟩]) fullShare,
    pointsTo_rep (Ix := HIx 1) (Name := ℕ) (U := UU) (Lvl := ℕ) (V d (cV L) (jV L)) (o2K L) (OUT m d) fullShare, View.read_writes_whole]
  have e : pay = (o2K L).view.read (Elt F) (OUT m d) := by
    funext x
    rw [hpay x, View.read_apply]
    simp only [cast_eq]
    rfl
  rw [e]

set_option maxHeartbeats 4000000 in
theorem tile_body [∀ e, Nonempty (Elt F e)] (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileP m d (jL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L iV (Memref.isWhole_whole _) tV (Memref.isWhole_whole _) oV (Memref.isWhole_whole _)
            sV (Memref.isWhole_whole _) rV (Memref.isWhole_whole _) cc0_scratch2 cc0_scratch3 cc0_scratch4 cc0_scratch5 cc0_scratch6)
          fun _ => iprop(tileP m d (jL L) (OUT m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_kernel_eq_skeleton]; unfold cc0__gather_kernel_skel
  rw [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi1, Hi2, Ht, Ho1, Ho2⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hplan : Transfers.BatchOf (V d (cV L) (jV L)) (SemLoc.dma (sig := sig) cc0_scratch6.sem) 2 := trivial
  ihave Hi1' := (Entails.of_eq (pts_i1K (F := F) d L _).symm) $$ Hi1
  ihave Hi2' := (Entails.of_eq (pts_i2K (F := F) d L _).symm) $$ Hi2
  ihave Ho1' := (Entails.of_eq (pts_o1K (F := F) d L _).symm) $$ Ho1
  ihave Ho2' := (Entails.of_eq (pts_o2K (F := F) d L _).symm) $$ Ho2
  ihave Ht' := (pts_toks (F := F) d L _ _).1 $$ Ht
  icases Ht' with ⟨Ht2, Ht3, Htrest⟩
  ihave Hs' := (pts_sHalves (F := F) d L _).1 $$ Hs
  icases Hs' with ⟨Hs1, Hs2⟩
  ihave Hr' := (pts_rHalves (F := F) d L _).1 $$ Hr
  icases Hr' with ⟨Hr1, Hr2⟩
  sl_exec
  have hin1 := inb_lo m d L hpre (sLo).view.junk (tile_body.sl.dma0 m d L) rfl
  sl_exec
  have hin2 := inb_hi m d L hpre (sHi).view.junk (tile_body.sl.dma0_1 m d L) rfl
  sl_exec
  sl_step
  -- the two runs of the result hold the lookup
  ihave Ho1'' := (Entails.of_eq (out_lo (F := F) m d L (m (oLoc d)) (tile_body.sl.dma1 m d L fr hin1)
    (fun x => gathered_lo (F := F) m d L (sLo).view.junk fr _ hin1 x))) $$ Ho1'
  ihave Ho2'' := (Entails.of_eq (out_hi (F := F) m d L (m (oLoc d)) (tile_body.sl.dma2 m d L fr hin2)
    (fun x => gathered_hi (F := F) m d L (sHi).view.junk fr _ hin2 x))) $$ Ho2'
  isplitl [Hi1' Hi2' Ht2 Ht3 Htrest Ho1'' Ho2'']
  · isplitl [Hi1']; · iapply (Entails.of_eq (pts_i1K (F := F) d L _)); iexact Hi1'
    isplitl [Hi2']; · iapply (Entails.of_eq (pts_i2K (F := F) d L _)); iexact Hi2'
    isplitl [Ht2 Ht3 Htrest]
    · iapply (pts_toks (F := F) d L _ _).2
      isplitl [Ht2]; · iexact Ht2
      isplitl [Ht3]; · iexact Ht3
      iexact Htrest
    isplitl [Ho1'']; · iexact Ho1''
    iexact Ho2''
  isplitl [Hs1 Hs2 Hr1 Hr2 Hbufs]
  · isplitl [Hs1 Hs2]
    · iapply (join_sHalves (F := F) d L _ _)
      isplitl [Hs1]; · iexact Hs1
      iexact Hs2
    isplitl [Hr1 Hr2]
    · iapply (join_rHalves (F := F) d L _ _)
      isplitl [Hr1]; · iexact Hr1
      iexact Hr2
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) tV (Memref.isWhole_whole _) oV (Memref.isWhole_whole _)
          sV (Memref.isWhole_whole _) rV (Memref.isWhole_whole _) cc0_scratch2 cc0_scratch3 cc0_scratch4 cc0_scratch5 cc0_scratch6) ⟨⟩ c s := rfl

omit [FloatOps F] m ρ in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KB

end
-- ==== Proof.KB.Split.lean ====
/-
  How the call's operands split among the sixteen tiles and come back: the list and the result by their 32 runs, two
  to a tile; the table by read shares, one to a tile, the remainder set aside until the shares return.
-/
import proofs.«201894_g28389733827062_cont_9to1_257_7_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

/-- The 32 runs, taken two by two: runs `2j` and `2j + 1` for each of the sixteen `j`. -/
theorem bigSep_halves (Φ : Fin 32 → sProp 𝕄) :
    bigSep Finset.univ Φ = iprop((bigSep Finset.univ fun j : Fin 16 => Φ (lo j)) ∗ bigSep Finset.univ fun j : Fin 16 => Φ (hi j)) := by
  rw [bigSep_univ_equiv (finProdFinEquiv (m := 16) (n := 2)) Φ, bigSep_univ_prod, ← bigSep_sep']
  refine bigSep_congr fun j _ => ?_
  rw [bigSep_fin_two]
  have e0 : finProdFinEquiv (m := 16) (n := 2) (j, 0) = lo j := Fin.ext (by simp [finProdFinEquiv])
  have e1 : finProdFinEquiv (m := 16) (n := 2) (j, 1) = hi j := Fin.ext (by simp [finProdFinEquiv]; omega)
  rw [e0, e1]
  rfl

theorem iPts_halves (d : Dev nD) (f : Buf (Elt F) (iLoc d)) :
    (iLoc d ↦{fullShare} f : sProp 𝕄)
      = iprop((bigSep Finset.univ fun j : Fin 16 => iLoc d ↦[halfSet (lo j)]{fullShare} f) ∗ bigSep Finset.univ fun j : Fin 16 => iLoc d ↦[halfSet (hi j)]{fullShare} f) := by
  rw [← bigSep_halves (fun h => (iLoc d ↦[halfSet h]{fullShare} f : sProp 𝕄)),
    ← pointsTo_biUnion Finset.univ (ℓ := iLoc d) halfSet halves_disjoint, halves_cover]; try rfl
theorem oPts_halves (d : Dev nD) (f : Buf (Elt F) (oLoc d)) :
    (oLoc d ↦{fullShare} f : sProp 𝕄)
      = iprop((bigSep Finset.univ fun j : Fin 16 => oLoc d ↦[halfSet (lo j)]{fullShare} f) ∗ bigSep Finset.univ fun j : Fin 16 => oLoc d ↦[halfSet (hi j)]{fullShare} f) := by
  rw [← bigSep_halves (fun h => (oLoc d ↦[halfSet h]{fullShare} f : sProp 𝕄)),
    ← pointsTo_biUnion Finset.univ (ℓ := oLoc d) halfSet halves_disjoint, halves_cover]; try rfl

theorem tPts_toks (d : Dev nD) (f : Buf (Elt F) (tLoc d)) :
    (tLoc d ↦{fullShare} f : sProp 𝕄)
      ⊣⊢ iprop((tLoc d ↦{Transfers.shareDrop fullShare 16} f) ∗ bigSep Finset.univ fun j : Fin 16 => tLoc d ↦{tq j} f) :=
  Transfers.pointsTo_toks fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) => tileP m d (Fin.cast nSub_zero i) (m (oLoc d)))
      ∗ ((bigSep Finset.univ fun i : Fin ((K (F := F)).nSub 0) => tileP m d (Fin.cast nSub_zero i) (OUT m d))
          -∗ iprop(iPts m d ∗ tPts m d ∗ oPts d (OUT m d))))
  rw [bigSep_tasks (F := F) (fun j => tileP m d j (m (oLoc d))), bigSep_tasks (F := F) (fun j => tileP m d j (OUT m d))]
  unfold tileP
  rw [bigSep_sep', bigSep_sep', bigSep_sep', bigSep_sep', bigSep_sep', bigSep_sep', bigSep_sep', bigSep_sep']
  unfold iPts oPts iHalf oHalf tTok tPts
  rw [iPts_halves, oPts_halves d (m (oLoc d)), oPts_halves d (OUT m d)]
  iintro ⟨⟨HA, HB⟩, Ht, ⟨HD, HE⟩⟩
  ihave Ht' := (tPts_toks (F := F) d _).1 $$ Ht
  icases Ht' with ⟨Hdrop, HC⟩
  imodintro
  isplitl [HA HB HC HD HE]
  · isplitl [HA]; · iexact HA
    isplitl [HB]; · iexact HB
    isplitl [HC]; · iexact HC
    isplitl [HD]; · iexact HD
    iexact HE
  iintro ⟨HA, HB, HC, HD, HE⟩
  isplitl [HA HB]
  · isplitl [HA]; · iexact HA
    iexact HB
  isplitl [Hdrop HC]
  · iapply (tPts_toks (F := F) d _).2
    isplitl [Hdrop]; · iexact Hdrop
    iexact HC
  isplitl [HD]; · iexact HD
  iexact HE

end Cert.Proof.KB

end
-- ==== Proof.KB.Launch.lean ====
/-
  The launch: the ghost state's launch element, @main on the TensorCore (the table read flat, the call, the result
  re-laid as a column), how the final memory reads the claim, and the program's run — every weakly fair execution of
  the TensorCore, the two sequencers and the thirty-two tiles terminates with the arguments unchanged and the result
  the lookup.
-/
import proofs.«201894_g28389733827062_cont_9to1_257_7_alg».proof.Proof.KB.Body
import proofs.«201894_g28389733827062_cont_9to1_257_7_alg».proof.Proof.KB.Split
import proofs.«201894_g28389733827062_cont_9to1_257_7_alg».proof.Proof.LookupRead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000 EltTy.f32)
local notation "oV" => (Memref.whole Cert.Kernel.main_v1_scv : Memref Cert.Kernel.sig Kind.scVector Space.hbm Cert.Kernel.S16384 EltTy.f32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.f32)

open Idealize.ShloMosaic.StableHlo (held held_split held_sdiff_result wp_hlo_within)

variable [FloatOps F]

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The TensorCore's arrays, all unscoped: the list, the table, the flat table, the result, the column. -/
abbrev S5 : Finset (DevRef τ sig) := {i', x', t', o', r'}

omit [FloatOps F] m ρ in
theorem held_S5 (d : Dev nD) (W : Valuation τ sig (Elt F)) :
    (held (T d) S5 W : sProp 𝕄)
      = iprop((iLoc d ↦{fullShare} W i') ∗ (xLoc d ↦{fullShare} W x') ∗ (tLoc d ↦{fullShare} W t')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (tLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

/-- The valuations: after the first re-layout, after the call, after the second re-layout. -/
def V1 (d : Dev nD) : Valuation τ sig (Elt F) := (opR1 (F := F)).result (V0 m d)
def V2 (d : Dev nD) : Valuation τ sig (Elt F) := Function.update (V1 m d) o' (OUT m d)
def V3 (d : Dev nD) : Valuation τ sig (Elt F) := (opR2 (F := F)).result (V2 m d)
/-- The program's result: the lookup re-laid as a column. -/
def RES (d : Dev nD) : Buf (Elt F) (rLoc d) := V3 m d r'

theorem V1_i (d : Dev nD) : V1 m d i' = m (iLoc d) := by
  unfold V1; rw [(opR1 (F := F)).result_of_not_mem _ (show i' ∉ ({t'} : Finset (DevRef τ sig)) by decide)]; rfl
theorem V1_x (d : Dev nD) : V1 m d x' = m (xLoc d) := by
  unfold V1; rw [(opR1 (F := F)).result_of_not_mem _ (show x' ∉ ({t'} : Finset (DevRef τ sig)) by decide)]; rfl
theorem V1_o (d : Dev nD) : V1 m d o' = m (oLoc d) := by
  unfold V1; rw [(opR1 (F := F)).result_of_not_mem _ (show o' ∉ ({t'} : Finset (DevRef τ sig)) by decide)]; rfl
theorem V1_r (d : Dev nD) : V1 m d r' = m (rLoc d) := by
  unfold V1; rw [(opR1 (F := F)).result_of_not_mem _ (show r' ∉ ({t'} : Finset (DevRef τ sig)) by decide)]; rfl
theorem V1_t (d : Dev nD) : V1 m d t' = TAB m d := rfl
theorem V2_i (d : Dev nD) : V2 m d i' = m (iLoc d) := (Function.update_of_ne (show i' ≠ o' by decide) _ _).trans (V1_i m d)
theorem V2_x (d : Dev nD) : V2 m d x' = m (xLoc d) := (Function.update_of_ne (show x' ≠ o' by decide) _ _).trans (V1_x m d)
theorem V2_t (d : Dev nD) : V2 m d t' = TAB m d := Function.update_of_ne (show t' ≠ o' by decide) _ _
theorem V2_r (d : Dev nD) : V2 m d r' = m (rLoc d) := (Function.update_of_ne (show r' ≠ o' by decide) _ _).trans (V1_r m d)
theorem V2_o (d : Dev nD) : V2 m d o' = OUT m d := Function.update_self _ _ _
theorem V3_i (d : Dev nD) : V3 m d i' = m (iLoc d) := by
  unfold V3; rw [(opR2 (F := F)).result_of_not_mem _ (show i' ∉ ({r'} : Finset (DevRef τ sig)) by decide)]; exact V2_i m d
theorem V3_x (d : Dev nD) : V3 m d x' = m (xLoc d) := by
  unfold V3; rw [(opR2 (F := F)).result_of_not_mem _ (show x' ∉ ({r'} : Finset (DevRef τ sig)) by decide)]; exact V2_x m d

theorem held_V1 (d : Dev nD) :
    (held (T d) S5 ((opR1 (F := F)).result (V0 m d)) : sProp 𝕄)
      = iprop(iPts m d ∗ xPts m d ∗ tPts m d ∗ oPts d (m (oLoc d)) ∗ rLoc d ↦{fullShare} m (rLoc d)) := by
  show held (SparseCore.T d) S5 (V1 m d) = _
  rw [held_S5, V1_i, V1_x, V1_o, V1_r, V1_t]
theorem held_V3 (d : Dev nD) :
    (held (T d) S5 ((opR2 (F := F)).result (V2 m d)) : sProp 𝕄)
      = iprop(iPts m d ∗ xPts m d ∗ (tLoc d ↦{fullShare} V3 m d t') ∗ (oLoc d ↦{fullShare} V3 m d o') ∗ rLoc d ↦{fullShare} RES m d) := by
  show held (SparseCore.T d) S5 (V3 m d) = _
  rw [held_S5, V3_i, V3_x]
  rfl

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (OUT m d)) :=
  bigSep_univ_of_subsingleton (0 : Fin 1)

omit m ρ in
theorem hR1 : (opR1 (F := F)).bufs ⊆ S5 := show ({x', t'} : Finset (DevRef τ sig)) ⊆ S5 by decide
omit m ρ in
theorem hR2 : (opR2 (F := F)).bufs ⊆ S5 := show ({o', r'} : Finset (DevRef τ sig)) ⊆ S5 by decide

/-- What @main leaves the claim: the list and the table at their launch contents, the column at the result. -/
abbrev FIN (d : Dev nD) : sProp 𝕄 := iprop(iPts m d ∗ xPts m d ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR1) (S := S5) hR1 (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Hx, Ht, Ho, Hr⟩
  iapply ((K (F := F)).wp_run (D (F := F)) 𝒱 (EH := EH) (P := P m) κ d 0) $$ [Hst Hi Ht Ho Hb Hx Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opR2) (S := S5) hR2 (V := V2 m d)) $$ [Hb Hi Hx Ht Ho Hr]
  · isplitl [Hb]; · iexact Hb
    rw [held_S5, V2_i, V2_x, V2_t, V2_o, V2_r]
    isplitl [Hi]; · iexact Hi
    isplitl [Hx]; · iexact Hx
    isplitl [Ht]; · iexact Ht
    isplitl [Ho]; · iexact Ho
    iexact Hr
  iintro ⟨Hb, Hheld⟩
  ihave Hh := (Entails.of_eq (held_V3 (F := F) m d)) $$ Hheld
  icases Hh with ⟨Hi, Hx, -, -, Hr⟩
  rw [wp_ret]; imodintro; imodintro
  isplitl [Hst]; · iexact Hst
  isplitl [Hi]; · iexact Hi
  isplitl [Hx]; · iexact Hx
  iexact Hr

def fq (d : Dev nD) (s' : Phys nD τ sig (Elt F)) : Prop :=
  s'.mem.mem (iLoc d) = m (iLoc d) ∧ s'.mem.mem (xLoc d) = m (xLoc d) ∧ s'.mem.mem (rLoc d) = RES m d

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (rLoc c) = RES m c ∧ r.2.mem (iLoc c) = m (iLoc c) ∧ r.2.mem (xLoc c) = m (xLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

/-! ## The result is the lookup -/

theorem RES_eq (d : Dev nD) : RES m d = Cert.Spec.G (m (iLoc d)) (m (xLoc d)) := by
  unfold RES V3
  rw [StableHlo.reshape_result, V2_o]
  unfold OUT TAB
  rw [StableHlo.reshape_result]
  exact Cert.LookupRead.reshape_lookup (m (iLoc d)) (V0 m d x') shapeCasts_S1000000x1_S1000000 shapeCasts_S16384_S16384x1

end Cert.Proof.KB

end
-- ==== Proof.PreRange.lean ====
/-
  What the precondition says of the row numbers. The precondition is the conjunction of two "all" tests: every
  table entry is finite, and every row number `w` satisfies `0 ≤ w` and `w ≤ 999999` as signed 32-bit integers.
  Only the second is used here: a word that is non-negative as a signed integer is its own natural number, so
  each row number, read as a natural number, is below the table's height 1000000.
-/
import proofs.«201894_g28389733827062_cont_9to1_257_7_alg».proof.Pre_input_domain
import proofs.«201894_g28389733827062_cont_9to1_257_7_alg».proof.Proof.Spec
import Idealize.ShloMosaic.Lib.ReduceAll

namespace Cert.PreRange

open Idealize.ShloMosaic Idealize.ShloMosaic.ValueIdx Cert.Pre_input_domain

/-- The rank-zero shape has one index. -/
instance : Subsingleton S_.Idx := ⟨fun a b => funext fun d => d.elim0⟩

/-- A 32-bit word between 0 and 999999 as a signed integer is below 1000000 as a natural number. -/
theorem toNat_lt_of_signed_bounds {w : BitVec 32} (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0; rw [e1] at h1
  have hw := w.isLt
  rw [BitVec.toInt_eq_toNat_cond] at h0 h1
  split at h0 <;> omega

/-- Under the precondition every row number names a row of the table. -/
theorem inRange_of_pre {F : FTy → Type} [FloatOps F] [Cert.Pre_input_domain.Facts]
    (idx : IVec Cert.Pre_input_domain.S16384 32) (tab : FVec F Cert.Pre_input_domain.S1000000x1 .f32)
    (h : Cert.Pre_input_domain.fn (F := F) idx tab = fun _ => 1#1) : Cert.Spec.InRange idx := by
  intro x
  have h0 := congrFun h ValueIdx.ix0
  dsimp only [Cert.Pre_input_domain.fn] at h0
  have h1 := (IntOp.andi_eq_one.1 h0).2
  have h2 := Host.reduce_andi_all _ _ _ _ _ h1 x
  obtain ⟨hge, hle⟩ := IntOp.andi_eq_one.1 h2
  exact toNat_lt_of_signed_bounds (IntOp.cmpi_sge.1 hge) (IntOp.cmpi_sle.1 hle)

end Cert.PreRange
-- ==== Proof.RefRun.lean ====
/-
  The reference program's run, read back. The reference looks rows up in a table: it first replaces a negative
  row number by that number plus the table's height, then gathers one row per number (the gather clamps the
  start row into the table), and finally overwrites with NaN every row whose number, after that replacement,
  falls outside the table. Its @main is one call of a function whose body calls a second one; with both bodies
  substituted at their calls it is a straight line of twenty-three tensor operations, `ops`. Every weakly fair
  execution of such a line terminates with each buffer at the fold of the operations' results over the launch
  contents; read at the result buffer that fold is `refTerm` of the two argument arrays, and at the argument
  buffers it is what was there.
-/
import proofs.«201894_g28389733827062_cont_9to1_257_7_alg».proof.ReferenceIdeal
import Idealize.ShloMosaic.Lib.StableHlo.Run
import Idealize.ShloMosaic.PureOps.Ideal

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The row numbers with each negative one moved up by the table's height (1000000). -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The same as a column: one start row per result row. -/
def starts (idx : IVec S16384 32) : IVec S16384x1 32 :=
  broadcastInDim S16384x1 ![0] bcast_S16384_S16384x1_0 (wrapped idx)

/-- Per result row, whether its (moved) row number lies in `0 … 999999`: the conjunction along the column axis of
    the two signed comparisons. -/
def inBounds (idx : IVec S16384 32) : IVec S16384 1 :=
  Host.reduce IntOp.andi
    (andi (cmpi .sge (starts idx) (broadcastInDim S16384x1 ![] bcast_S_S16384x1 (constantI S_ 32 0#32)))
      (cmpi .sle (starts idx)
        (broadcastInDim S16384x1 ![0, 1] bcast_S1x1_S16384x1_0_1
          (broadcastInDim S1x1 ![1] bcast_S1_S1x1_1 (constantI S1 32 999999#32)))))
    (constantI S_ 1 1#1) reducesTo_S16384x1_S16384_d1 h_S_

/-- What the reference computes from its two argument arrays: the gathered rows where the row number is in
    bounds, NaN elsewhere. -/
def refTerm (idx : IVec S16384 32) (tab : FVec F S1000000x1 .f32) : FVec F S16384x1 .f32 :=
  select (broadcastInDim S16384x1 ![0] bcast_S16384_S16384x1_0 (inBounds idx))
    (Host.gather gather_S1000000x1_S16384x1_S16384x1_1_0_n_n_0_1_11 tab (starts idx))
    (broadcastInDim S16384x1 ![] bcast_S_S16384x1 (constant S_ .f32 0x7FC00000#32))

/-- @main's operations in order, the two calls unfolded: the first function's twenty-two (the comparison with
    zero, the sum with the height, the second function's one select among them) over the call's buffers. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x1_S16384x1_S16384x1_1_0_n_n_0_1_11 x i),
    TRef.unary main_call0.v12 main_call0.v14 (broadcastInDim S16384x1 ![0] bcast_S16384_S16384x1_0),
    TRef.nullary main_call0.cst (constant S_ .f32 0x7FC00000#32),
    TRef.unary main_call0.cst main_call0.v15 (broadcastInDim S16384x1 ![] bcast_S_S16384x1),
    TRef.ternary main_call0.v14 main_call0.v13 main_call0.v15 main_call0.v16 select ]

set_option maxRecDepth 1024 in
/-- @main is that straight line: the two functions' definitions unfolded at their calls, both sides are one chain
    of steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
/-- The fold at the result buffer is `refTerm` of the arguments' contents: the fold unrolled, each operation's
    result rewritten at its own buffer to its function's value and at any other buffer to what was there; the
    typed references' casts are along equations between a type and itself, so they drop; what is left is
    `refTerm` with its definitions unfolded. The reduction and the gather stay folded: the equation never looks
    inside them. -/
theorem out_eq (V : Valuation τ sig (Elt F)) :
    after ops V (main_v0 : DevRef τ sig)
      = refTerm (F := F) (V (main_arg0 : DevRef τ sig)) (V (main_arg1 : DevRef τ sig)) := by
  after_results
  simp only [TRef.ofBuf, TRef.toBuf, cast_cast, cast_eq]
  unfold refTerm inBounds starts wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run at the ideal instance: it terminates with the result buffer at `refTerm` of the two
    argument arrays and the argument arrays unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v0)
            = refTerm (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v0).trans (out_eq _), (h c main_arg0).trans (arg0_eq _), (h c main_arg1).trans (arg1_eq _)⟩)
    (run_main (F := Ideal) m ρ)

end Cert.RefSide

end
-- ==== Proof.RefValue.lean ====
/-
  The reference's value on row numbers inside the table. When every row number, read as a natural number, is below
  the table's height 1000000: no row number is negative as a signed integer, so the replacement of negative numbers
  changes nothing; each lies between 0 and 999999, so the out-of-range mask is all ones and the final select keeps
  the gathered rows; and the gather's clamp of the start row into `0 … 999999` is the identity, so result row `j`
  is the table's row `idx j`. That is the lookup `Cert.Spec.G`.
-/
import proofs.«201894_g28389733827062_cont_9to1_257_7_alg».proof.Proof.RefRun
import proofs.«201894_g28389733827062_cont_9to1_257_7_alg».proof.Proof.Spec
import Idealize.ShloMosaic.Lib.ReduceAll
import Idealize.ShloMosaic.Lib.ValueIdx

noncomputable section

namespace Cert.RefSide

open Cert.ReferenceIdeal Cert.ReferenceIdeal.Facts₀ Idealize.ShloMosaic Idealize.ShloMosaic.ValueIdx Idealize.ShloMosaic.TcCoe
  Idealize.SL.Sem

variable {F : FTy → Type} [FloatOps F] [Cert.ReferenceIdeal.Facts]

/-! ## Words -/

/-- A word below 1000000 as a natural number is that number as a signed integer. -/
theorem toInt_of_lt {w : BitVec 32} (h : w.toNat < 1000000) : w.toInt = (w.toNat : Int) := by
  rw [BitVec.toInt_eq_toNat_cond]
  split <;> omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 by decide]
    exact foldl_andi_one f l fun n hn => h n (List.mem_cons_of_mem _ hn)

/-! ## The column broadcast and the gather, read at an index -/

/-- A list of 16384 entries broadcast to a column reads, at row `j 0`, entry `j 0`. -/
theorem bcast_col_apply {α : Type} (x : S16384.Idx → α) (j : S16384x1.Idx) :
    broadcastInDim S16384x1 ![0] bcast_S16384_S16384x1_0 x j = x (ix1 (j 0)) := by
  unfold broadcastInDim
  refine congrArg x (funext fun a => ?_)
  match a with
  | ⟨0, _⟩ => rfl

/-- The gather read at `j`: the table's row at the start index `si (j 0, 0)`, read signed and clamped into
    `0 … 999999`, at column `j 1`. Axis 0 of the table is collapsed and is the one axis the start index names;
    axis 1 is the offset axis, of extent one. -/
theorem gather_apply {α : Type} {w : Nat} (x : S1000000x1.Idx → α) (si : IVec S16384x1 w) (j : S16384x1.Idx) :
    Host.gather gather_S1000000x1_S16384x1_S16384x1_1_0_n_n_0_1_11 x si j
      = x (ix2 (⟨min (si (ix2 (j 0) (0 : Fin 1))).toInt.toNat 999999, by omega⟩ : Fin 1000000) (j 1)) := by
  unfold Host.gather
  refine congrArg x (funext fun a => Fin.ext ?_)
  match a with
  | ⟨0, _⟩ =>
    show gather_S1000000x1_S16384x1_S16384x1_1_0_n_n_0_1_11.start j si 0
        + gather_S1000000x1_S16384x1_S16384x1_1_0_n_n_0_1_11.batchCoord j 0
        + gather_S1000000x1_S16384x1_S16384x1_1_0_n_n_0_1_11.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x1_S16384x1_S16384x1_1_0_n_n_0_1_11.startIndexMap
      from List.mem_singleton.mpr rfl)]
    have hsi : gather_S1000000x1_S16384x1_S16384x1_1_0_n_n_0_1_11.siIdx j
        ⟨List.idxOf (0 : Fin 2) gather_S1000000x1_S16384x1_S16384x1_1_0_n_n_0_1_11.startIndexMap,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := gather_S1000000x1_S16384x1_S16384x1_1_0_n_n_0_1_11.lt j si 1
    have h2 : (j 1).val < 1 := (j 1).isLt
    show gather_S1000000x1_S16384x1_S16384x1_1_0_n_n_0_1_11.start j si 1
        + gather_S1000000x1_S16384x1_S16384x1_1_0_n_n_0_1_11.batchCoord j 1
        + gather_S1000000x1_S16384x1_S16384x1_1_0_n_n_0_1_11.offCoord j 1 = (j 1).val
    have h3 : gather_S1000000x1_S16384x1_S16384x1_1_0_n_n_0_1_11.start j si 1
        + gather_S1000000x1_S16384x1_S16384x1_1_0_n_n_0_1_11.batchCoord j 1
        + gather_S1000000x1_S16384x1_S16384x1_1_0_n_n_0_1_11.offCoord j 1 < 1 := h1
    omega

/-! ## The reference's intermediate values on row numbers inside the table -/

/-- No row number is negative: the replacement keeps every one. -/
theorem wrapped_eq (idx : IVec S16384 32) (hin : Cert.Spec.InRange idx) : wrapped idx = idx := by
  funext x
  unfold wrapped
  rw [select_apply]
  have hc : cmpi .slt idx (broadcastInDim S16384 ![] bcast_S_S16384 (constantI S_ 32 0#32)) x = 0#1 := by
    refine eq_zero_of_ne_one fun h1 => ?_
    have h2 : (idx x).toInt < (0#32 : BitVec 32).toInt := IntOp.cmpi_slt.1 h1
    rw [toInt_of_lt (hin x), show (0#32 : BitVec 32).toInt = 0 by decide] at h2
    omega
  rw [hc, select_zero]

/-- The start rows are the row numbers. -/
theorem starts_apply (idx : IVec S16384 32) (hin : Cert.Spec.InRange idx) (j : S16384x1.Idx) :
    starts idx j = idx (ix1 (j 0)) := by
  unfold starts
  rw [bcast_col_apply, wrapped_eq idx hin]

/-- Every row number is in bounds: the mask is all ones. -/
theorem inBounds_eq (idx : IVec S16384 32) (hin : Cert.Spec.InRange idx) (x : S16384.Idx) : inBounds idx x = 1#1 := by
  unfold inBounds
  rw [Host.reduce_eq_foldl]
  refine foldl_andi_one _ _ fun i _ => ?_
  refine IntOp.andi_eq_one.2 ⟨IntOp.cmpi_sge.2 ?_, IntOp.cmpi_sle.2 ?_⟩
  · show (0#32 : BitVec 32).toInt ≤ (starts idx i).toInt
    rw [starts_apply idx hin, toInt_of_lt (hin _), show (0#32 : BitVec 32).toInt = 0 by decide]
    omega
  · show (starts idx i).toInt ≤ (999999#32 : BitVec 32).toInt
    rw [starts_apply idx hin, toInt_of_lt (hin _), show (999999#32 : BitVec 32).toInt = 999999 by decide]
    have := hin (ix1 (i 0))
    omega

/-! ## The value -/

/-- On row numbers inside the table the reference's result is the lookup: row `j` is the table's row `idx j`. -/
theorem refTerm_eq_G (idx : IVec S16384 32) (tab : FVec F S1000000x1 .f32) (hin : Cert.Spec.InRange idx) :
    refTerm idx tab = Cert.Spec.G idx tab := by
  funext j
  unfold refTerm
  rw [select_apply, bcast_col_apply, inBounds_eq idx hin, select_one, gather_apply]
  unfold Cert.Spec.G
  refine congrArg tab ?_
  have h1 : (j 1).val < 1 := (j 1).isLt
  have hj : j 1 = (0 : Fin 1) := Fin.ext (show (j 1).val = 0 by omega)
  rw [hj]
  refine congrArg (fun r : Fin 1000000 => ix2 r (0 : Fin 1)) (Fin.ext ?_)
  show min (starts idx (ix2 (j 0) (0 : Fin 1))).toInt.toNat 999999 = (Cert.Spec.row (idx (ix1 (j 0)))).val
  rw [starts_apply idx hin, toInt_of_lt (hin _), Cert.Spec.row_val_of_lt (hin _)]
  have := hin (ix1 (j 0))
  show min ((idx (ix1 (j 0))).toNat : Int).toNat 999999 = (idx (ix1 (j 0))).toNat
  rw [Int.toNat_natCast]
  omega

/-- The reference's run with its result as the lookup: under `InRange` of the row numbers on each device, it
    terminates with the result buffer at `Cert.Spec.G` of the two argument arrays and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg)
    (hin : ∀ c : Dev Cert.ReferenceIdeal.nD,
      Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (refTerm_eq_G (F := Ideal) _ _ (hin c)), (h c).2⟩)
    (run m ρ)

end Cert.RefSide

end
-- ==== Proof.RefClaims.lean ====
/-
  The reference's share of the certificate's claims, at the proved side conditions. Its frame claim: the reference
  runs and leaves its two argument arrays as they were. Its half of the equivalence claim: from a memory that
  agrees on the arguments with a memory satisfying the precondition, the reference runs, leaves its arguments as
  they were, and ends with its result equal to the lookup `Cert.Spec.G` of the OTHER memory's arguments. Both
  follow from the reference's run read as the lookup; the precondition enters only through the range of the row
  numbers.
-/
import proofs.«201894_g28389733827062_cont_9to1_257_7_alg».proof.Defs
import proofs.«201894_g28389733827062_cont_9to1_257_7_alg».proof.Proof.Gen.ReferenceIdeal
import proofs.«201894_g28389733827062_cont_9to1_257_7_alg».proof.Proof.Gen.Pre_input_domain
import proofs.«201894_g28389733827062_cont_9to1_257_7_alg».proof.Proof.Gen.KernelIdeal
import proofs.«201894_g28389733827062_cont_9to1_257_7_alg».proof.Proof.Gen.Kernel
import proofs.«201894_g28389733827062_cont_9to1_257_7_alg».proof.Proof.PreRange
import proofs.«201894_g28389733827062_cont_9to1_257_7_alg».proof.Proof.RefValue

namespace Cert.RefSide

open Idealize.ShloMosaic Idealize.SL.Sem

/-- Under the precondition of the idealized kernel's memory every row number names a row of the table. -/
theorem inRange_ki (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    ∀ c : Dev Cert.KernelIdeal.nD, Cert.Spec.InRange (m ((c.tc : Thread Cert.KernelIdeal.nD Cert.KernelIdeal.τ).loc Cert.KernelIdeal.main_arg0)) :=
  fun c => Cert.PreRange.inRange_of_pre _ _ (hpre c)

/-- The same for the kernel's memory at the bit-exact instance. -/
theorem inRange_kb (m : (ℓ : Loc Cert.Kernel.nD Cert.Kernel.τ Cert.Kernel.sig) → Buf (Elt Bits) ℓ)
    (hpre : Cert.Pre_Kernel (hPre_input_domain := Cert.Pre_input_domain.Gen.facts) m) :
    ∀ c : Dev Cert.Kernel.nD, Cert.Spec.InRange (m ((c.tc : Thread Cert.Kernel.nD Cert.Kernel.τ).loc Cert.Kernel.main_arg0)) :=
  fun c => Cert.PreRange.inRange_of_pre _ _ (hpre c)

/-- The same for the reference's own memory. -/
theorem inRange_ri (m : (ℓ : Loc Cert.ReferenceIdeal.nD Cert.ReferenceIdeal.τ Cert.ReferenceIdeal.sig) → Buf (Elt Ideal) ℓ)
    (hpre : Cert.Pre_ReferenceIdeal (hPre_input_domain := Cert.Pre_input_domain.Gen.facts) m) :
    ∀ c : Dev Cert.ReferenceIdeal.nD, Cert.Spec.InRange (m ((c.tc : Thread Cert.ReferenceIdeal.nD Cert.ReferenceIdeal.τ).loc Cert.ReferenceIdeal.main_arg0)) :=
  fun c => Cert.PreRange.inRange_of_pre _ _ (hpre c)

/-- The reference runs and its argument arrays end unchanged (no precondition is needed for that). -/
theorem frame_ri : Cert.frame_ReferenceIdeal (hReferenceIdeal := Cert.ReferenceIdeal.Gen.facts)
    (hPre_input_domain := Cert.Pre_input_domain.Gen.facts) := by
  intro m g _
  exact (θ_run (Cert.ReferenceIdeal.defs (F := Ideal)) _ _).mono (fun _ h c => (h c).2) (Cert.RefSide.run m g)

/-- The reference's half of the equivalence: from a memory `m'` that agrees on the arguments with a memory `m`
    satisfying the precondition, the reference ends with its result the lookup of `m`'s arguments and its own
    arguments unchanged. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  have hin : ∀ c : Dev Cert.ReferenceIdeal.nD, Cert.Spec.InRange (m' ((c.tc : Thread Cert.ReferenceIdeal.nD Cert.ReferenceIdeal.τ).loc Cert.ReferenceIdeal.main_arg0)) := by
    intro c
    rw [(hagree c).1]
    exact inRange_ki m hpre c
  refine (θ_run (Cert.ReferenceIdeal.defs (F := Ideal)) _ _).mono (fun _ h c => ⟨?_, (h c).2⟩) (Cert.RefSide.run_G m' g' hin)
  rw [(h c).1, (hagree c).1, (hagree c).2]

end Cert.RefSide
-- ==== Proof.lean ====
/-
  The certificate's claim. The kernel is a table lookup on the vector subcores: sixteen tiles each fetch their 1024
  words of the index list, gather the table's entries those words name, and write them to their part of the result;
  the reference is the same lookup on the host. Under the precondition every word of the list names a row of the
  table, so both programs run to the end and the result is, row by row, the table's row the list names. The ideal
  pass rewrote nothing, so the word-level kernel and its idealization are one text read at two float instances.
-/
import proofs.«201894_g28389733827062_cont_9to1_257_7_alg».proof.Defs
import proofs.«201894_g28389733827062_cont_9to1_257_7_alg».proof.Proof.Gen.Kernel
import proofs.«201894_g28389733827062_cont_9to1_257_7_alg».proof.Proof.Gen.Kernel.Skeleton
import proofs.«201894_g28389733827062_cont_9to1_257_7_alg».proof.Proof.Gen.KernelIdeal
import proofs.«201894_g28389733827062_cont_9to1_257_7_alg».proof.Proof.Gen.KernelIdeal.Skeleton
import proofs.«201894_g28389733827062_cont_9to1_257_7_alg».proof.Proof.Gen.ReferenceIdeal
import proofs.«201894_g28389733827062_cont_9to1_257_7_alg».proof.Proof.Gen.Pre_input_domain
import proofs.«201894_g28389733827062_cont_9to1_257_7_alg».proof.Proof.KI.Launch
import proofs.«201894_g28389733827062_cont_9to1_257_7_alg».proof.Proof.KB.Launch
import proofs.«201894_g28389733827062_cont_9to1_257_7_alg».proof.Proof.RefClaims
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel (hKernel := Cert.Kernel.Gen.facts) (hPre_input_domain := Cert.Pre_input_domain.Gen.facts) :=
  fun m ρ hpre => (θ_run Cert.Kernel.defs _ _).mono (fun _ h c => ⟨(h c).2.1, (h c).2.2⟩)
    (Cert.Proof.KB.run_main (F := Bits) m ρ (Cert.RefSide.inRange_kb m hpre))

/-- So does the idealized kernel. -/
theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩)
    (Cert.Proof.KI.run_main (F := Ideal) m ρ (Cert.RefSide.inRange_ki m hpre))

/-- Both idealized programs end with the lookup of the list in the table. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_,
    Cert.RefSide.ref_half m m' g' hpre hagree⟩
  exact (θ_run Cert.KernelIdeal.defs _ _).mono
    (fun _ h c => ⟨(h c).1.trans (Cert.Proof.KI.RES_eq m c), (h c).2.1, (h c).2.2⟩)
    (Cert.Proof.KI.run_main (F := Ideal) m g (Cert.RefSide.inRange_ki m hpre))

theorem claim : Cert.Claim := ⟨Cert.Kernel.Gen.facts, Cert.KernelIdeal.Gen.facts, Cert.ReferenceIdeal.Gen.facts, Cert.Pre_input_domain.Gen.facts,
  frame_k, frame_ki, Cert.RefSide.frame_ri, trivial, algebraic⟩

end Cert.Proof

end
